-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S768x256 : Shape := ⟨2, ![768, 256]⟩
abbrev S768 : Shape := ⟨1, ![768]⟩
abbrev S256x1x1 : Shape := ⟨3, ![256, 1, 1]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S768x256 : S_.BroadcastsInDim S768x256 (![] : Fin 0 → Fin S768x256.rank)
  reducesTo_S768x256_S_d0_1 : S768x256.ReducesTo [0, 1] S_
  bcast_S_S768 : S_.BroadcastsInDim S768 (![] : Fin 0 → Fin S768.rank)
  reducesTo_S768_S_d0 : S768.ReducesTo [0] S_
  bcast_S_S256x1x1 : S_.BroadcastsInDim S256x1x1 (![] : Fin 0 → Fin S256x1x1.rank)
  reducesTo_S256x1x1_S_d0_1_2 : S256x1x1.ReducesTo [0, 1, 2] S_

variable [Facts]

def fn_part2 {F : FTy → Type} [FloatOps F] (main_arg7 : FVec F S256x1x1 .f32) (main_v33 : IVec S_ 1) : IVec S_ 1 :=
  let main_v34 : FVec F S256x1x1 .f32 := Host.absf main_arg7
  let main_cst_12 : FVec F S_ .f32 := constant S_ .f32 0x7F800000#32
  let main_v35 : FVec F S256x1x1 .f32 := broadcastInDim S256x1x1 ![] bcast_S_S256x1x1 main_cst_12
  let main_v36 : IVec S256x1x1 1 := cmpf .olt main_v34 main_v35
  let main_c_13 : IVec S_ 1 := constantI S_ 1 1#1
  let main_v37 : IVec S_ 1 := (fun x v => Host.reduce IntOp.andi x v reducesTo_S256x1x1_S_d0_1_2 h_S_) main_v36 main_c_13
  let main_v38 : IVec S_ 1 := andi main_v33 main_v37
  main_v38

def fn_part1 {F : FTy → Type} [FloatOps F] (main_arg4 : FVec F S768 .f32) (main_arg5 : FVec F S768 .f32) (main_arg6 : FVec F S256x1x1 .f32) (main_arg7 : FVec F S256x1x1 .f32) (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768 .f32 := Host.absf main_arg5
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S256x1x1 .f32 := Host.absf main_arg6
  let main_cst_10 : FVec F S_ .f32 := constant S_ .f32 0x7F800000#32
  let main_v30 : FVec F S256x1x1 .f32 := broadcastInDim S256x1x1 ![] bcast_S_S256x1x1 main_cst_10
  let main_v31 : IVec S256x1x1 1 := cmpf .olt main_v29 main_v30
  let main_c_11 : IVec S_ 1 := constantI S_ 1 1#1
  let main_v32 : IVec S_ 1 := (fun x v => Host.reduce IntOp.andi x v reducesTo_S256x1x1_S_d0_1_2 h_S_) main_v31 main_c_11
  let main_v33 : IVec S_ 1 := andi main_v28 main_v32
  fn_part2 (F := F) main_arg7 main_v33

def fn {F : FTy → Type} [FloatOps F] (main_arg0 : FVec F S32x256x64x64 .f32) (main_arg1 : FVec F S768x256 .f32) (main_arg2 : FVec F S768 .f32) (main_arg3 : FVec F S768 .f32) (main_arg4 : FVec F S768 .f32) (main_arg5 : FVec F S768 .f32) (main_arg6 : FVec F S256x1x1 .f32) (main_arg7 : FVec F S256x1x1 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S768x256 .f32 := Host.absf main_arg1
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_arg4 main_arg5 main_arg6 main_arg7 main_v13 main_v16
-- ==== Kernel.lean ====
abbrev S32x256x64x64 : Shape := ⟨4, ![32, 256, 64, 64]⟩
abbrev S768x256 : Shape := ⟨2, ![768, 256]⟩
abbrev S768 : Shape := ⟨1, ![768]⟩
abbrev S256x1x1 : Shape := ⟨3, ![256, 1, 1]⟩
abbrev S_ : Shape := ⟨0, ![]⟩
abbrev S32x1x64x64 : Shape := ⟨4, ![32, 1, 64, 64]⟩
abbrev S32x257x64x64 : Shape := ⟨4, ![32, 257, 64, 64]⟩
abbrev S32x258x64x64 : Shape := ⟨4, ![32, 258, 64, 64]⟩
abbrev S32x258x4096 : Shape := ⟨3, ![32, 258, 4096]⟩
abbrev S256x768 : Shape := ⟨2, ![256, 768]⟩
abbrev S1x768 : Shape := ⟨2, ![1, 768]⟩
abbrev S256x1 : Shape := ⟨2, ![256, 1]⟩
abbrev S32x256x4096 : Shape := ⟨3, ![32, 256, 4096]⟩
abbrev S1x258x4096 : Shape := ⟨3, ![1, 258, 4096]⟩
abbrev S1x256x4096 : Shape := ⟨3, ![1, 256, 4096]⟩
abbrev S256x4096 : Shape := ⟨2, ![256, 4096]⟩
abbrev S256 : Shape := ⟨1, ![256]⟩
abbrev S1x256 : Shape := ⟨2, ![1, 256]⟩

abbrev nBuf : Space → Nat
  | .hbm => 27
  | .vmem => 12
  | .smem => 0
  | _ => 0

abbrev bufTy : (tb : Table) → Fin (tcTables nBuf tb) → BufTy
  | .hbm, ⟨0, _⟩ => ⟨S32x256x64x64, .f32⟩
  | .hbm, ⟨1, _⟩ => ⟨S768x256, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S768, .f32⟩
  | .hbm, ⟨6, _⟩ => ⟨S256x1x1, .f32⟩
  | .hbm, ⟨7, _⟩ => ⟨S256x1x1, .f32⟩
  | .hbm, ⟨8, _⟩ => ⟨S_, .i32⟩
  | .hbm, ⟨9, _⟩ => ⟨S32x1x64x64, .f32⟩
  | .hbm, ⟨10, _⟩ => ⟨S32x1x64x64, .f32⟩
  | .hbm, ⟨11, _⟩ => ⟨S32x1x64x64, .f32⟩
  | .hbm, ⟨12, _⟩ => ⟨S32x257x64x64, .f32⟩
  | .hbm, ⟨13, _⟩ => ⟨S32x1x64x64, .f32⟩
  | .hbm, ⟨14, _⟩ => ⟨S32x1x64x64, .f32⟩
  | .hbm, ⟨15, _⟩ => ⟨S32x1x64x64, .f32⟩
  | .hbm, ⟨16, _⟩ => ⟨S32x258x64x64, .f32⟩
  | .hbm, ⟨17, _⟩ => ⟨S32x258x4096, .f32⟩
  | .hbm, ⟨18, _⟩ => ⟨S256x768, .f32⟩
  | .hbm, ⟨19, _⟩ => ⟨S1x768, .f32⟩
  | .hbm, ⟨20, _⟩ => ⟨S1x768, .f32⟩
  | .hbm, ⟨21, _⟩ => ⟨S1x768, .f32⟩
  | .hbm, ⟨22, _⟩ => ⟨S1x768, .f32⟩
  | .hbm, ⟨23, _⟩ => ⟨S256x1, .f32⟩
  | .hbm, ⟨24, _⟩ => ⟨S256x1, .f32⟩
  | .hbm, ⟨25, _⟩ => ⟨S32x256x4096, .f32⟩
  | .hbm, ⟨26, _⟩ => ⟨S32x256x64x64, .f32⟩
  | .local _ .vmem, ⟨0, _⟩ => ⟨S1x258x4096, .f32⟩
  | .local _ .vmem, ⟨1, _⟩ => ⟨S1x258x4096, .f32⟩
  | .local _ .vmem, ⟨2, _⟩ => ⟨S256x768, .f32⟩
  | .local _ .vmem, ⟨3, _⟩ => ⟨S1x768, .f32⟩
  | .local _ .vmem, ⟨4, _⟩ => ⟨S1x768, .f32⟩
  | .local _ .vmem, ⟨5, _⟩ => ⟨S1x768, .f32⟩
  | .local _ .vmem, ⟨6, _⟩ => ⟨S1x768, .f32⟩
  | .local _ .vmem, ⟨7, _⟩ => ⟨S256x1, .f32⟩
  | .local _ .vmem, ⟨8, _⟩ => ⟨S256x1, .f32⟩
  | .local _ .vmem, ⟨9, _⟩ => ⟨S1x256x4096, .f32⟩
  | .local _ .vmem, ⟨10, _⟩ => ⟨S1x256x4096, .f32⟩
  | .local _ .vmem, ⟨11, _⟩ => ⟨S256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x258x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x256x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S32x256x64x64_S32x1x64x64_0_0_0_0 : S32x256x64x64.Slices ![0, 0, 0, 0] S32x1x64x64
  slices_S32x256x64x64_S32x1x64x64_0_1_0_0 : S32x256x64x64.Slices ![0, 1, 0, 0] S32x1x64x64
  concatenates_S32x1x64x64_S32x256x64x64_S32x257x64x64_d1 : Shape.Concatenates [S32x1x64x64, S32x256x64x64] S32x257x64x64 1
  slices_S32x257x64x64_S32x1x64x64_0_256_0_0 : S32x257x64x64.Slices ![0, 256, 0, 0] S32x1x64x64
  slices_S32x257x64x64_S32x1x64x64_0_255_0_0 : S32x257x64x64.Slices ![0, 255, 0, 0] S32x1x64x64
  concatenates_S32x257x64x64_S32x1x64x64_S32x258x64x64_d1 : Shape.Concatenates [S32x257x64x64, S32x1x64x64] S32x258x64x64 1
  shapeCasts_S32x258x64x64_S32x258x4096 : S32x258x64x64.ShapeCasts S32x258x4096
  transposes_S768x256_S256x768_1_0 : S768x256.Transposes [1, 0] S256x768
  shapeCasts_S768_S1x768 : S768.ShapeCasts S1x768
  shapeCasts_S256x1x1_S256x1 : S256x1x1.ShapeCasts S256x1
  inb_S1x258x4096_S1x256x4096_0_1_0 : ∀ a, (![0, 1, 0] : Fin 3 → Nat) a + S1x256x4096.size a ≤ S1x258x4096.size a
  h_S1x256x4096 : 0 < S1x256x4096.numel
  shapeCasts_S1x256x4096_S256x4096 : S1x256x4096.ShapeCasts S256x4096
  reduces_S256x4096_S256 : S256x4096.Reduces [1] S256
  shapeCasts_S256_S256x1 : S256.ShapeCasts S256x1
  transposes_S256x1_p1_0_S1x256 : S256x1.Transposes [1, 0] S1x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  slices_S1x768_o0_0_S1x256 : S1x768.Slices ![0, 0] S1x256
  transposes_S1x256_p1_0_S256x1 : S1x256.Transposes [1, 0] S256x1
  slices_S1x768_o0_256_S1x256 : S1x768.Slices ![0, 256] S1x256
  slices_S1x768_o0_512_S1x256 : S1x768.Slices ![0, 512] S1x256
  inb_S1x258x4096_S1x256x4096_0_0_0 : ∀ a, (![0, 0, 0] : Fin 3 → Nat) a + S1x256x4096.size a ≤ S1x258x4096.size a
  inb_S1x258x4096_S1x256x4096_0_2_0 : ∀ a, (![0, 2, 0] : Fin 3 → Nat) a + S1x256x4096.size a ≤ S1x258x4096.size a
  broadcasts_S256x1_S256x4096 : S256x1.Broadcasts S256x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x256x4096_S1x256x4096_0_0_0 : ∀ a, (![0, 0, 0] : Fin 3 → Nat) a + S1x256x4096.size a ≤ S1x256x4096.size a
  shapeCasts_S256x4096_S1x256x4096 : S256x4096.ShapeCasts S1x256x4096
  shapeCasts_S32x256x4096_S32x256x64x64 : S32x256x4096.ShapeCasts S32x256x64x64
  dot_S1x256_S256x768_S1x768_1_0_0_1_n_n_wf : DotDims.WF S1x256 S256x768 S1x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x258x4096.size a ≤ S32x258x4096.size a
  hwx0_0 : ∀ i : grid0.Coords, EltTy.bits .f32 = 32 ∨ (Rect.block (s := S32x258x4096) S1x258x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x768.size a ≤ S1x768.size a
  hwx0_5 : ∀ i : grid0.Coords, EltTy.bits .f32 = 32 ∨ (Rect.block (s := S1x768) S1x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S256x1.size a
  hwx0_6 : ∀ i : grid0.Coords, EltTy.bits .f32 = 32 ∨ (Rect.block (s := S256x1) S256x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x1.size a ≤ S256x1.size a
  hwx0_7 : ∀ i : grid0.Coords, EltTy.bits .f32 = 32 ∨ (Rect.block (s := S256x1) S256x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x256x4096.size a ≤ S32x256x4096.size a
  hwx0_8 : ∀ i : grid0.Coords, EltTy.bits .f32 = 32 ∨ (Rect.block (s := S32x256x4096) S1x256x4096.size (cc0_transform_8 i) (hinb0_8 i)).WholeWords (EltTy.packing .f32)

variable [Facts₀]

def dot_S1x256_S256x768_S1x768_1_0_0_1_n_n : DotDims S1x256 S256x768 S1x768 where
  lhsContracting := [1]
  rhsContracting := [0]
  lhsNonContracting := [0]
  rhsNonContracting := [1]
  lhsBatch := []
  rhsBatch := []
  wf := dot_S1x256_S256x768_S1x768_1_0_0_1_n_n_wf

abbrev win0_0 : Pipeline.Window sig grid0 :=
  Pipeline.Window.ofSpec (Memref.whole main_v1) S1x258x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S256x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S256x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v9) S1x256x4096.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S768x256 : Shape := ⟨2, ![768, 256]⟩
abbrev S768 : Shape := ⟨1, ![768]⟩
abbrev S256x1x1 : Shape := ⟨3, ![256, 1, 1]⟩
abbrev S_ : Shape := ⟨0, ![]⟩
abbrev S32x256 : Shape := ⟨2, ![32, 256]⟩
abbrev S32x768 : Shape := ⟨2, ![32, 768]⟩
abbrev S1x768 : Shape := ⟨2, ![1, 768]⟩
abbrev S32x3x256 : Shape := ⟨3, ![32, 3, 256]⟩
abbrev S32x1x64x64 : Shape := ⟨4, ![32, 1, 64, 64]⟩
abbrev S32x257x64x64 : Shape := ⟨4, ![32, 257, 64, 64]⟩
abbrev S32x258x64x64 : Shape := ⟨4, ![32, 258, 64, 64]⟩
abbrev S32x1x256 : Shape := ⟨3, ![32, 1, 256]⟩
abbrev S32x256x1x1 : Shape := ⟨4, ![32, 256, 1, 1]⟩
abbrev S1x256x1x1 : Shape := ⟨4, ![1, 256, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S768x256, .f32⟩
  | .hbm, ⟨2, _⟩ => ⟨S768, .f32⟩
  | .hbm, ⟨3, _⟩ => ⟨S768, .f32⟩
  | .hbm, ⟨4, _⟩ => ⟨S768, .f32⟩
  | .hbm, ⟨5, _⟩ => ⟨S768, .f32⟩
  | .hbm, ⟨6, _⟩ => ⟨S256x1x1, .f32⟩
  | .hbm, ⟨7, _⟩ => ⟨S256x1x1, .f32⟩
  | .hbm, ⟨8, _⟩ => ⟨S_, .f32⟩
  | .hbm, ⟨9, _⟩ => ⟨S32x256, .f32⟩
  | .hbm, ⟨10, _⟩ => ⟨S_, .f32⟩
  | .hbm, ⟨11, _⟩ => ⟨S32x256, .f32⟩
  | .hbm, ⟨12, _⟩ => ⟨S32x256, .f32⟩
  | .hbm, ⟨13, _⟩ => ⟨S32x768, .f32⟩
  | .hbm, ⟨14, _⟩ => ⟨S1x768, .f32⟩
  | .hbm, ⟨15, _⟩ => ⟨S32x768, .f32⟩
  | .hbm, ⟨16, _⟩ => ⟨S32x768, .f32⟩
  | .hbm, ⟨17, _⟩ => ⟨S_, .f32⟩
  | .hbm, ⟨18, _⟩ => ⟨S768, .f32⟩
  | .hbm, ⟨19, _⟩ => ⟨S768, .f32⟩
  | .hbm, ⟨20, _⟩ => ⟨S768, .f32⟩
  | .hbm, ⟨21, _⟩ => ⟨S1x768, .f32⟩
  | .hbm, ⟨22, _⟩ => ⟨S32x768, .f32⟩
  | .hbm, ⟨23, _⟩ => ⟨S32x768, .f32⟩
  | .hbm, ⟨24, _⟩ => ⟨S1x768, .f32⟩
  | .hbm, ⟨25, _⟩ => ⟨S32x768, .f32⟩
  | .hbm, ⟨26, _⟩ => ⟨S32x768, .f32⟩
  | .hbm, ⟨27, _⟩ => ⟨S1x768, .f32⟩
  | .hbm, ⟨28, _⟩ => ⟨S32x768, .f32⟩
  | .hbm, ⟨29, _⟩ => ⟨S32x768, .f32⟩
  | .hbm, ⟨30, _⟩ => ⟨S32x768, .f32⟩
  | .hbm, ⟨31, _⟩ => ⟨S32x768, .f32⟩
  | .hbm, ⟨32, _⟩ => ⟨S_, .f32⟩
  | .hbm, ⟨33, _⟩ => ⟨S32x768, .f32⟩
  | .hbm, ⟨34, _⟩ => ⟨S32x768, .f32⟩
  | .hbm, ⟨35, _⟩ => ⟨S_, .f32⟩
  | .hbm, ⟨36, _⟩ => ⟨S32x768, .f32⟩
  | .hbm, ⟨37, _⟩ => ⟨S32x768, .f32⟩
  | .hbm, ⟨38, _⟩ => ⟨S32x3x256, .f32⟩
  | .hbm, ⟨39, _⟩ => ⟨S_, .i32⟩
  | .hbm, ⟨40, _⟩ => ⟨S32x1x64x64, .f32⟩
  | .hbm, ⟨41, _⟩ => ⟨S32x1x64x64, .f32⟩
  | .hbm, ⟨42, _⟩ => ⟨S32x1x64x64, .f32⟩
  | .hbm, ⟨43, _⟩ => ⟨S32x257x64x64, .f32⟩
  | .hbm, ⟨44, _⟩ => ⟨S32x1x64x64, .f32⟩
  | .hbm, ⟨45, _⟩ => ⟨S32x1x64x64, .f32⟩
  | .hbm, ⟨46, _⟩ => ⟨S32x1x64x64, .f32⟩
  | .hbm, ⟨47, _⟩ => ⟨S32x258x64x64, .f32⟩
  | .hbm, ⟨48, _⟩ => ⟨S32x1x256, .f32⟩
  | .hbm, ⟨49, _⟩ => ⟨S32x256, .f32⟩
  | .hbm, ⟨50, _⟩ => ⟨S32x256x1x1, .f32⟩
  | .hbm, ⟨51, _⟩ => ⟨S32x256x64x64, .f32⟩
  | .hbm, ⟨52, _⟩ => ⟨S32x256x64x64, .f32⟩
  | .hbm, ⟨53, _⟩ => ⟨S32x256x64x64, .f32⟩
  | .hbm, ⟨54, _⟩ => ⟨S32x1x256, .f32⟩
  | .hbm, ⟨55, _⟩ => ⟨S32x256, .f32⟩
  | .hbm, ⟨56, _⟩ => ⟨S32x256x1x1, .f32⟩
  | .hbm, ⟨57, _⟩ => ⟨S32x256x64x64, .f32⟩
  | .hbm, ⟨58, _⟩ => ⟨S32x256x64x64, .f32⟩
  | .hbm, ⟨59, _⟩ => ⟨S32x256x64x64, .f32⟩
  | .hbm, ⟨60, _⟩ => ⟨S32x256x64x64, .f32⟩
  | .hbm, ⟨61, _⟩ => ⟨S32x1x256, .f32⟩
  | .hbm, ⟨62, _⟩ => ⟨S32x256, .f32⟩
  | .hbm, ⟨63, _⟩ => ⟨S32x256x1x1, .f32⟩
  | .hbm, ⟨64, _⟩ => ⟨S32x256x64x64, .f32⟩
  | .hbm, ⟨65, _⟩ => ⟨S32x256x64x64, .f32⟩
  | .hbm, ⟨66, _⟩ => ⟨S32x256x64x64, .f32⟩
  | .hbm, ⟨67, _⟩ => ⟨S32x256x64x64, .f32⟩
  | .hbm, ⟨68, _⟩ => ⟨S1x256x1x1, .f32⟩
  | .hbm, ⟨69, _⟩ => ⟨S32x256x64x64, .f32⟩
  | .hbm, ⟨70, _⟩ => ⟨S32x256x64x64, .f32⟩
  | .hbm, ⟨71, _⟩ => ⟨S1x256x1x1, .f32⟩
  | .hbm, ⟨72, _⟩ => ⟨S32x256x64x64, .f32⟩
  | .hbm, ⟨73, _⟩ => ⟨S32x256x64x64, .f32⟩
  | .hbm, ⟨74, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_call0_v6 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]

class Facts₀ : Prop where
  reducesTo_S32x256x64x64_S32x256_d2_3 : S32x256x64x64.ReducesTo [2, 3] S32x256
  h_S_ : 0 < S_.numel
  bcast_S_S32x256 : S_.BroadcastsInDim S32x256 (![] : Fin 0 → Fin S32x256.rank)
  bcast_S768_S1x768_1 : S768.BroadcastsInDim S1x768 (![1] : Fin 1 → Fin S1x768.rank)
  bcast_S1x768_S32x768_0_1 : S1x768.BroadcastsInDim S32x768 (![0, 1] : Fin 2 → Fin S32x768.rank)
  bcast_S_S768 : S_.BroadcastsInDim S768 (![] : Fin 0 → Fin S768.rank)
  bcast_S_S32x768 : S_.BroadcastsInDim S32x768 (![] : Fin 0 → Fin S32x768.rank)
  shapeCasts_S32x768_S32x3x256 : S32x768.ShapeCasts S32x3x256
  slices_S32x256x64x64_S32x1x64x64_0_0_0_0 : S32x256x64x64.Slices ![0, 0, 0, 0] S32x1x64x64
  slices_S32x256x64x64_S32x1x64x64_0_1_0_0 : S32x256x64x64.Slices ![0, 1, 0, 0] S32x1x64x64
  concatenates_S32x1x64x64_S32x256x64x64_S32x257x64x64_d1 : Shape.Concatenates [S32x1x64x64, S32x256x64x64] S32x257x64x64 1
  slices_S32x257x64x64_S32x1x64x64_0_256_0_0 : S32x257x64x64.Slices ![0, 256, 0, 0] S32x1x64x64
  slices_S32x257x64x64_S32x1x64x64_0_255_0_0 : S32x257x64x64.Slices ![0, 255, 0, 0] S32x1x64x64
  concatenates_S32x257x64x64_S32x1x64x64_S32x258x64x64_d1 : Shape.Concatenates [S32x257x64x64, S32x1x64x64] S32x258x64x64 1
  slices_S32x3x256_S32x1x256_0_0_0 : S32x3x256.Slices ![0, 0, 0] S32x1x256
  shapeCasts_S32x1x256_S32x256 : S32x1x256.ShapeCasts S32x256
  bcast_S32x256_S32x256x1x1_0_1 : S32x256.BroadcastsInDim S32x256x1x1 (![0, 1] : Fin 2 → Fin S32x256x1x1.rank)
  slices_S32x258x64x64_S32x256x64x64_0_0_0_0 : S32x258x64x64.Slices ![0, 0, 0, 0] S32x256x64x64
  bcast_S32x256x1x1_S32x256x64x64_0_1_2_3 : S32x256x1x1.BroadcastsInDim S32x256x64x64 (![0, 1, 2, 3] : Fin 4 → Fin S32x256x64x64.rank)
  slices_S32x3x256_S32x1x256_0_1_0 : S32x3x256.Slices ![0, 1, 0] S32x1x256
  slices_S32x258x64x64_S32x256x64x64_0_1_0_0 : S32x258x64x64.Slices ![0, 1, 0, 0] S32x256x64x64
  slices_S32x3x256_S32x1x256_0_2_0 : S32x3x256.Slices ![0, 2, 0] S32x1x256
  slices_S32x258x64x64_S32x256x64x64_0_2_0_0 : S32x258x64x64.Slices ![0, 2, 0, 0] S32x256x64x64
  bcast_S256x1x1_S1x256x1x1_1_2_3 : S256x1x1.BroadcastsInDim S1x256x1x1 (![1, 2, 3] : Fin 3 → Fin S1x256x1x1.rank)
  bcast_S1x256x1x1_S32x256x64x64_0_1_2_3 : S1x256x1x1.BroadcastsInDim S32x256x64x64 (![0, 1, 2, 3] : Fin 4 → Fin S32x256x64x64.rank)
  dot_S32x256_S768x256_S32x768_1_1_0_0_n_n_wf : DotDims.WF S32x256 S768x256 S32x768 [1] [1] [0] [0] [] []

variable [Facts₀]

def dot_S32x256_S768x256_S32x768_1_1_0_0_n_n : DotDims S32x256 S768x256 S32x768 where
  lhsContracting := [1]
  rhsContracting := [1]
  lhsNonContracting := [0]
  rhsNonContracting := [0]
  lhsBatch := []
  rhsBatch := []
  wf := dot_S32x256_S768x256_S32x768_1_1_0_0_n_n_wf

class Facts : Prop extends Facts₀ where

variable [Facts]
-- ==== Proof.KPiece.lean ====
/-
  What one grid point's body leaves in the output block, as ONE pure function of the eight input
  blocks: the three channel-shifted slabs of the padded sample (rows 0.., 1.., 2.. of its 258), the
  filter computed from the middle slab, the three-tap sum accumulated through the scratch buffer
  (each store covers the scratch whole, so each read-back is the last store's value), the affine
  residual.
-/
import proofs.«155818_j60060822667451_1_alg».proof.Proof.Gen.KernelIdeal.Frame
import Idealize.ShloMosaic.Lib.Pipeline.Value

set_option maxRecDepth 16384

noncomputable section

namespace Cert.KernelIdeal.KPiece

open Idealize.ShloMosaic Idealize.ShloMosaic.TcCoe Idealize.ShloMosaic.Tactic
open Idealize.SL Idealize.SL.Sem
open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A load of the whole buffer after a list of stores the LAST of which covered it whole reads that store's
    value. -/
theorem readCov_cons_unit_zero {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

/-- The 256 rows of the padded sample's block starting at row 0, 1 or 2. -/
abbrev slab0 (x0 : Vec F S1x258x4096 .f32) : Vec F S1x256x4096 .f32 :=
  View.ld x0 (Rect.unit ![0, 0, 0] S1x256x4096.size inb_S1x258x4096_S1x256x4096_0_0_0)
abbrev slab1 (x0 : Vec F S1x258x4096 .f32) : Vec F S1x256x4096 .f32 :=
  View.ld x0 (Rect.unit ![0, 1, 0] S1x256x4096.size inb_S1x258x4096_S1x256x4096_0_1_0)
abbrev slab2 (x0 : Vec F S1x258x4096 .f32) : Vec F S1x256x4096 .f32 :=
  View.ld x0 (Rect.unit ![0, 2, 0] S1x256x4096.size inb_S1x258x4096_S1x256x4096_0_2_0)

/-- The body's result block as a function of the input blocks. -/
def body (x0 : Vec F S1x258x4096 .f32) (x1 : Vec F S256x768 .f32) (x2 x3 x4 x5 : Vec F S1x768 .f32)
    (x6 x7 : Vec F S256x1 .f32) : Vec F S1x256x4096 .f32 :=
  k0_pay4 (k0_pay5 (slab1 x0))
    (k0_pay3 (k0_pay9 (slab1 x0) x1 x4 x5 x2 x3) (k0_pay11 (slab2 x0))
      (k0_pay2 (k0_pay5 (slab1 x0)) (k0_pay8 (slab1 x0) x1 x4 x5 x2 x3)
        (k0_pay1 (k0_pay7 (slab1 x0) x1 x4 x5 x2 x3) (k0_pay10 (slab0 x0)))))
    x6 x7

/-- The run's found piece IS that function. -/
theorem out_eq (c : Dev nD) (i : grid0.Coords) (arg1 : Memref sig .tc .vmem S1x258x4096 .f32) (harg1 : arg1.IsWhole) (arg2 : Memref sig .tc .vmem S256x768 .f32) (harg2 : arg2.IsWhole) (arg3 : Memref sig .tc .vmem S1x768 .f32) (harg3 : arg3.IsWhole) (arg4 : Memref sig .tc .vmem S1x768 .f32) (harg4 : arg4.IsWhole) (arg5 : Memref sig .tc .vmem S1x768 .f32) (harg5 : arg5.IsWhole) (arg6 : Memref sig .tc .vmem S1x768 .f32) (harg6 : arg6.IsWhole) (arg7 : Memref sig .tc .vmem S256x1 .f32) (harg7 : arg7.IsWhole) (arg8 : Memref sig .tc .vmem S256x1 .f32) (harg8 : arg8.IsWhole) (arg9 : Memref sig .tc .vmem S1x256x4096 .f32) (harg9 : arg9.IsWhole) (arg10 : Memref sig .tc .vmem S256x4096 .f32) (harg10 : arg10.IsWhole)
    (x0 : Vec F S1x258x4096 .f32) (x1 : Vec F S256x768 .f32) (x2 : Vec F S1x768 .f32) (x3 : Vec F S1x768 .f32) (x4 : Vec F S1x768 .f32) (x5 : Vec F S1x768 .f32) (x6 : Vec F S256x1 .f32) (x7 : Vec F S256x1 .f32) :
    out0_A_8 c i arg1 harg1 arg2 harg2 arg3 harg3 arg4 harg4 arg5 harg5 arg6 harg6 arg7 harg7 arg8 harg8 arg9 harg9 arg10 harg10 x0 x1 x2 x3 x4 x5 x6 x7 = body x0 x1 x2 x3 x4 x5 x6 x7 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 x0 x1 x2 x3 x4 x5 x6 x7)]
  unfold kernelRun0_A
  dsimp only
  sl_unfold_words
  rw [View.canon_unit_zero hz3]
  simp only [readCov_cons_unit_zero (S := S256x4096) _ hz2, View.readCov_unit_zero (S := S256x4096) _ hz2]
  simp only [View.readAt_eq_ld, harg1.read_unread, harg2.read_unread, harg3.read_unread, harg4.read_unread,
    harg5.read_unread, harg6.read_unread, harg7.read_unread, harg8.read_unread,
    View.ld_unit_zero (S := S256x768) hz2, View.ld_unit_zero (S := S1x768) hz2, View.ld_unit_zero (S := S256x1) hz2]
  rfl

end Cert.KernelIdeal.KPiece

end
-- ==== Proof.Spec.lean ====
/-
  The specification both programs are proved against: one function of the eight argument arrays,
  index by index, over the extended reals.

  For a sample b the mean of channel q over its 64 × 64 spatial field is `gap x b q`; a 1×1
  convolution of the 256 means with a [768, 256] weight, an evaluation-mode batch normalisation and a
  logistic give 768 filter entries `filt`, read as three taps of 256 channels each. The output at
  (b, c, h, w) is the three-tap combination, along the channel axis, of the reflect-padded input
  (rows c, c+1, c+2 of `padT x`; row c+1 is the input's own row c), scaled by gamma, plus the
  input scaled by beta.
-/
import Idealize.ShloMosaic.Lib.ValueIdx
import Idealize.ShloMosaic.Lib.Pipeline.Value
import Idealize.ShloMosaic.PureOps.Ideal.Laws

noncomputable section

namespace Cert.Spec

open Idealize.ShloMosaic Idealize.ShloMosaic.ValueIdx

abbrev SX : Shape := ⟨4, ![32, 256, 64, 64]⟩
abbrev SXP : Shape := ⟨4, ![32, 258, 64, 64]⟩
abbrev SM : Shape := ⟨4, ![32, 257, 64, 64]⟩
abbrev SE : Shape := ⟨4, ![32, 1, 64, 64]⟩
abbrev SW : Shape := ⟨2, ![768, 256]⟩
abbrev SV : Shape := ⟨1, ![768]⟩
abbrev SG : Shape := ⟨3, ![256, 1, 1]⟩

theorem sl1 : SX.Slices ![0, 1, 0, 0] SE := by decide
theorem cc1 : Shape.Concatenates [SE, SX] SM 1 := by decide
theorem sl2 : SM.Slices ![0, 255, 0, 0] SE := by decide
theorem cc2 : Shape.Concatenates [SM, SE] SXP 1 := by decide

/-- The input with its channel row 1 put in front of it: 257 rows. -/
def padFront (x : FVec Ideal SX .f32) : FVec Ideal SM .f32 :=
  concatenate SM 1 [⟨SE, Host.reverse [1] (extractStridedSlice SE ![0, 1, 0, 0] x sl1)⟩, ⟨SX, x⟩] cc1

/-- The reflect padding of the channel axis by one row on each side: row 1 in front, row 254 behind. -/
def padT (x : FVec Ideal SX .f32) : FVec Ideal SXP .f32 :=
  concatenate SXP 1 [⟨SM, padFront x⟩, ⟨SE, Host.reverse [1] (extractStridedSlice SE ![0, 255, 0, 0] (padFront x) sl2)⟩] cc2

/-- Row c + 1 of the padded array is row c of the input. -/
theorem padT_mid (x : FVec Ideal SX .f32) (b : Fin 32) (c : Fin 256) (h w : Fin 64) :
    padT x (ix4 b (⟨c.val + 1, by omega⟩ : Fin 258) h w) = x (ix4 b c h w) := by
  unfold padT
  refine (concatenate_pair_apply_left (1 : Fin SXP.rank) _ _ cc2 _ rfl
    (ix4 b (⟨c.val + 1, by omega⟩ : Fin 257) h w) (fun d => ?_)).trans ?_
  · match d with
    | ⟨0, _⟩ => rfl
    | ⟨1, _⟩ => rfl
    | ⟨2, _⟩ => rfl
    | ⟨3, _⟩ => rfl
  unfold padFront
  refine concatenate_pair_apply_right (1 : Fin SM.rank) _ x cc1 _ rfl rfl (ix4 b c h w) (fun d hd => ?_) ?_
  · match d with
    | ⟨0, _⟩ => rfl
    | ⟨1, _⟩ => exact absurd rfl hd
    | ⟨2, _⟩ => rfl
    | ⟨3, _⟩ => rfl
  · rfl

/-- The batch normalisation's epsilon, as both programs write it. -/
def eps : EReal := Ideal.ofBits .f32 0x3727C5AC#32
/-- The size of the spatial field, 4096, as both programs write it. -/
def n4096 : EReal := Ideal.ofBits .f32 0x45800000#32

/-- The mean over the spatial field of channel q of sample b. -/
def gap (x : FVec Ideal SX .f32) (b : Fin 32) (q : Fin 256) : EReal :=
  Ideal.div (∑ h : Fin 64, ∑ w : Fin 64, x (ix4 b q h w)) n4096

/-- Filter entry o of 768 from the 256 channel means g: the 1×1 convolution, the normalisation by the
    running statistics, and the logistic. -/
def filt (g : Fin 256 → EReal) (cw : FVec Ideal SW .f32) (bw bb mean var : FVec Ideal SV .f32) (o : Fin 768) : EReal :=
  Ideal.logistic ((((∑ q : Fin 256, g q * cw (ix2 o q)) - mean (ix1 o)) * Ideal.rsqrt (var (ix1 o) + eps)) * bw (ix1 o)
    + bb (ix1 o))

/-- The result at (b, c, h, w). -/
def outAt (x : FVec Ideal SX .f32) (cw : FVec Ideal SW .f32) (bw bb mean var : FVec Ideal SV .f32)
    (gamma beta : FVec Ideal SG .f32) (b : Fin 32) (c : Fin 256) (h w : Fin 64) : EReal :=
  ((filt (gap x b) cw bw bb mean var (⟨c.val, by omega⟩ : Fin 768) * padT x (ix4 b (⟨c.val, by omega⟩ : Fin 258) h w)
      + filt (gap x b) cw bw bb mean var (⟨256 + c.val, by omega⟩ : Fin 768) * x (ix4 b c h w))
      + filt (gap x b) cw bw bb mean var (⟨512 + c.val, by omega⟩ : Fin 768) * padT x (ix4 b (⟨c.val + 2, by omega⟩ : Fin 258) h w))
    * gamma (ix3 c 0 0)
    + x (ix4 b c h w) * beta (ix3 c 0 0)

/-- The result array. -/
def out (x : FVec Ideal SX .f32) (cw : FVec Ideal SW .f32) (bw bb mean var : FVec Ideal SV .f32)
    (gamma beta : FVec Ideal SG .f32) : FVec Ideal SX .f32 :=
  fun i => outAt x cw bw bb mean var gamma beta (i 0) (i 1) (i 2) (i 3)

theorem out_ix4 (x : FVec Ideal SX .f32) (cw : FVec Ideal SW .f32) (bw bb mean var : FVec Ideal SV .f32)
    (gamma beta : FVec Ideal SG .f32) (b : Fin 32) (c : Fin 256) (h w : Fin 64) :
    out x cw bw bb mean var gamma beta (ix4 b c h w) = outAt x cw bw bb mean var gamma beta b c h w := rfl

end Cert.Spec

end
-- ==== Proof.KPayLayout.lean ====
/-
  The body's layout operations read at an index given by coordinates.

  A row slab of the padded block starting at row r reads, at (0, p, l), the block at (0, p + r, l).
  The casts between [1, 256, 4096] and [256, 4096] keep (p, l). A column [256, 1] transposed to a
  row [1, 256] reads at (0, q) the column's entry q, and the other way round. A slice of the row of
  768 at offset o reads at (0, p) the row's entry o + p.
-/
import proofs.«155818_j60060822667451_1_alg».proof.Proof.KPiece
import Idealize.ShloMosaic.Lib.ValueIdx
import Idealize.ShloMosaic.Lib.Pipeline.Value

noncomputable section

namespace Cert.KernelIdeal.KPayload

open Idealize.ShloMosaic Idealize.ShloMosaic.ValueIdx
open Cert.KernelIdeal Cert.KernelIdeal.Gen Cert.KernelIdeal.KPiece

variable {α : Type}

/-! ## The three row slabs -/

/-- The slab starting at row 0 reads the block's row p. -/
theorem slab0_apply (x0 : Vec Ideal S1x258x4096 .f32) (p : Fin 256) (l : Fin 4096) :
    slab0 x0 (ix3 (0 : Fin 1) p l) = x0 (ix3 (0 : Fin 1) (⟨p.val, by omega⟩ : Fin 258) l) :=
  congrArg x0 (funext fun a => Fin.ext (by
    match a with
    | ⟨0, _⟩ => rfl
    | ⟨1, _⟩ => show 0 + 1 * p.val = p.val; omega
    | ⟨2, _⟩ => show 0 + 1 * l.val = l.val; omega))

/-- The slab starting at row 1 reads the block's row p + 1. -/
theorem slab1_apply (x0 : Vec Ideal S1x258x4096 .f32) (p : Fin 256) (l : Fin 4096) :
    slab1 x0 (ix3 (0 : Fin 1) p l) = x0 (ix3 (0 : Fin 1) (⟨p.val + 1, by omega⟩ : Fin 258) l) :=
  congrArg x0 (funext fun a => Fin.ext (by
    match a with
    | ⟨0, _⟩ => rfl
    | ⟨1, _⟩ => show 1 + 1 * p.val = p.val + 1; omega
    | ⟨2, _⟩ => show 0 + 1 * l.val = l.val; omega))

/-- The slab starting at row 2 reads the block's row p + 2. -/
theorem slab2_apply (x0 : Vec Ideal S1x258x4096 .f32) (p : Fin 256) (l : Fin 4096) :
    slab2 x0 (ix3 (0 : Fin 1) p l) = x0 (ix3 (0 : Fin 1) (⟨p.val + 2, by omega⟩ : Fin 258) l) :=
  congrArg x0 (funext fun a => Fin.ext (by
    match a with
    | ⟨0, _⟩ => rfl
    | ⟨1, _⟩ => show 2 + 1 * p.val = p.val + 2; omega
    | ⟨2, _⟩ => show 0 + 1 * l.val = l.val; omega))

/-! ## The casts that drop and add the leading unit axis -/

/-- [1, 256, 4096] viewed as [256, 4096]: (p, l) reads (0, p, l). -/
theorem cast_drop_apply (v : S1x256x4096.Idx → α) (h : S1x256x4096.ShapeCasts S256x4096) (p : Fin 256) (l : Fin 4096) :
    shapeCast S256x4096 v h (ix2 p l) = v (ix3 (0 : Fin 1) p l) :=
  shapeCast_apply v h _ _ (by
    rw [Shape.rowMajor_val_three, Shape.rowMajor_val_two]
    show (0 * 256 + p.val) * 4096 + l.val = p.val * 4096 + l.val
    omega)

/-- [256, 4096] viewed as [1, 256, 4096]: (0, p, l) reads (p, l). -/
theorem cast_add_apply (v : S256x4096.Idx → α) (h : S256x4096.ShapeCasts S1x256x4096) (p : Fin 256) (l : Fin 4096) :
    shapeCast S1x256x4096 v h (ix3 (0 : Fin 1) p l) = v (ix2 p l) :=
  shapeCast_apply v h _ _ (by
    rw [Shape.rowMajor_val_three, Shape.rowMajor_val_two]
    show p.val * 4096 + l.val = (0 * 256 + p.val) * 4096 + l.val
    omega)

/-! ## Row and column -/

/-- A column transposed to a row: (0, q) reads (q, 0). -/
theorem transpose_col_apply (v : S256x1.Idx → α) (h : S256x1.Transposes [1, 0] S1x256) (q : Fin 256) :
    transpose S1x256 [1, 0] v h (ix2 (0 : Fin 1) q) = v (ix2 q (0 : Fin 1)) :=
  transpose_apply [1, 0] v h _ _ (fun b => by
    match b with
    | ⟨0, _⟩ => rfl
    | ⟨1, _⟩ => rfl)

/-- A row transposed to a column: (p, 0) reads (0, p). -/
theorem transpose_row_apply (v : S1x256.Idx → α) (h : S1x256.Transposes [1, 0] S256x1) (p : Fin 256) :
    transpose S256x1 [1, 0] v h (ix2 p (0 : Fin 1)) = v (ix2 (0 : Fin 1) p) :=
  transpose_apply [1, 0] v h _ _ (fun b => by
    match b with
    | ⟨0, _⟩ => rfl
    | ⟨1, _⟩ => rfl)

/-- The 256 entries from offset o of a row of 768: (0, p) reads (0, o + p). -/
theorem slice_row_apply (o : Nat) (v : S1x768.Idx → α) (h : S1x768.Slices ![0, o] S1x256) (p : Fin 256) (k : Fin 768)
    (hk : k.val = o + p.val) :
    extractStridedSlice S1x256 ![0, o] v h (ix2 (0 : Fin 1) p) = v (ix2 (0 : Fin 1) k) :=
  extractStridedSlice_apply _ v h _ _ (fun a => by
    match a with
    | ⟨0, _⟩ => rfl
    | ⟨1, _⟩ => exact hk)

end Cert.KernelIdeal.KPayload

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.LibLaneSum.lean ====
/-
  The sum along the rows of a matrix, read at one row.

  A float `vector.multi_reduction <add>` of an `[a, b]` matrix over its SECOND axis (a lane sum: one number per row, the
  form `jnp.sum(x, axis=-1)` takes inside a kernel) is, at row `p` on the extended reals, the plain sum over the
  columns `k` of the entries `(p, k)`: the reduction's accumulator is the neutral element of the sum and contributes
  nothing, and the index the reduction inserts the column `k` into at row `p` is `(p, k)`.
-/
import Idealize.ShloMosaic.Lib.ValueIdx
import Idealize.ShloMosaic.PureOps.Ideal.Laws

noncomputable section

namespace Cert.LaneSum

open Idealize.ShloMosaic Idealize.ShloMosaic.ValueIdx

/-- Row `p` of the lane sum of an `[a, b]` matrix is `∑ k, src[p, k]`, for any float format and any witnesses of the
    reduction's side conditions. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun c => Fin.ext (by
      match c with
      | ⟨0, _⟩ => rfl
      | ⟨1, _⟩ => rfl)))

end Cert.LaneSum

end
-- ==== Proof.LibPlainProduct.lean ====
/-
  A plain matrix product into a zero accumulator, read at one entry.

  For a matrix `l` of shape `[M, K]` and a matrix `r` of shape `[K, N]`, contracted over `l`'s second axis and `r`'s first,
  the product's entry `(p, c)` on the extended reals is `∑ k, l[p, k] · r[k, c]`: the accumulator contributes the real `0`,
  the contraction index has a single axis of extent `K` and is traded for its one coordinate `k`, and the operand indices
  at the output index `(p, c)` and contraction coordinate `k` are `(p, k)` and `(k, c)`.

  The dimension numbers enter only through six facts, which a caller proves for its own record: the contraction shape
  has rank one (`hr`) and extent `K` (`hs`), and the four coordinates of the two operand indices (`hl0`, `hl1`, `hr0`,
  `hr1`). The operands' float formats are arbitrary.
-/
import Idealize.ShloMosaic.Lib.ValueIdx
import Idealize.ShloMosaic.PureOps.Ideal.Laws

noncomputable section

namespace Cert.PlainProduct

open Idealize.ShloMosaic Idealize.ShloMosaic.ValueIdx

/-- Entry `(p, c)` of an `[M, K]` by `[K, N]` product into the zero accumulator is `∑ k, l[p, k] · r[k, c]`, for any dimension
    numbers `D` whose contraction has the one axis of extent `K` and whose operand indices read `(p, k)` and `(k, c)`. -/
theorem matmul_zero_entry {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (q ⟨0, by omega⟩).val)
    (hr1 : ∀ (j : (⟨2, ![M, N]⟩ : Shape).Idx) (q : D.contr.Idx), (D.rhsIdx j q (1 : Fin 2)).val = (j (1 : Fin 2)).val)
    {φ₁ φ₂ : FTy} (l : FVec Ideal ⟨2, ![M, K]⟩ φ₁) (r : FVec Ideal ⟨2, ![K, N]⟩ φ₂) (p : Fin M) (c : Fin N) :
    FloatOps.matmul D none l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 k c :=
    funext fun a => Fin.ext (by
      match a with
      | ⟨0, _⟩ => exact (hr0 (ix2 p c) _).trans hk
      | ⟨1, _⟩ => exact hr1 (ix2 p c) _)
  rw [el, er]

end Cert.PlainProduct

end
-- ==== Proof.KPayFilter.lean ====
/-
  The 768 filter entries read at an index.

  The middle slab's lane sum at row q is the sum over the 4096 lanes of the slab's row q; divided by
  4096 it is the channel mean, laid out as a row of 256. The product of that row with the [256, 768]
  weight into the zero accumulator is, at entry o, the sum over q of mean q times weight (q, o). The
  normalisation by the running statistics, the affine map and the logistic are entry by entry.
-/
import proofs.«155818_j60060822667451_1_alg».proof.Proof.KPayLayout
import proofs.«155818_j60060822667451_1_alg».proof.Proof.LibColumnLayout
import proofs.«155818_j60060822667451_1_alg».proof.Proof.LibLaneSum
import proofs.«155818_j60060822667451_1_alg».proof.Proof.LibPlainProduct
import Idealize.ShloMosaic.PureOps.Ideal.Laws

noncomputable section

namespace Cert.KernelIdeal.KPayload

open Idealize.ShloMosaic Idealize.ShloMosaic.ValueIdx
open Cert.KernelIdeal Cert.KernelIdeal.Gen Cert.KernelIdeal.KPiece

/-- A slab viewed as [256, 4096]: (p, l) reads (0, p, l). -/
theorem pay5_apply (v : Vec Ideal S1x256x4096 .f32) (p : Fin 256) (l : Fin 4096) :
    k0_pay5 v (ix2 p l) = v (ix3 (0 : Fin 1) p l) :=
  cast_drop_apply v _ p l

/-- The row of the 256 lane means of a slab. -/
def meanRow (v0 : Vec Ideal S1x256x4096 .f32) : FVec Ideal S1x256 .f32 :=
  transpose S1x256 [1, 0]
    (divf
      (shapeCast S256x1
        (multiReduction (F := Ideal) .add [1] S256 (k0_pay5 v0) 0x00000000#32 reduces_S256x4096_S256 (.inl rfl) rfl)
        shapeCasts_S256_S256x1)
      (broadcast S256x1 (Scalar.ofBits (F := Ideal) .f32 0x45800000#32)))
    transposes_S256x1_p1_0_S1x256

/-- Entry q of the row of means: the slab's row q summed over its lanes, divided by 4096. -/
theorem meanRow_apply (v0 : Vec Ideal S1x256x4096 .f32) (q : Fin 256) :
    meanRow v0 (ix2 (0 : Fin 1) q)
      = Ideal.div (∑ l : Fin 4096, v0 (ix3 (0 : Fin 1) q l)) (Ideal.ofBits .f32 0x45800000#32) :=
  (transpose_col_apply _ _ q).trans
    (congrArg (fun s => Ideal.div s (Ideal.ofBits .f32 0x45800000#32))
      ((Cert.ColumnLayout.shapeCast_a_a1_apply _ _ q (0 : Fin 1)).trans
        ((Cert.LaneSum.multiReduction_add_rows (k0_pay5 v0) _ _ _ _ q).trans
          (Finset.sum_congr rfl fun l _ => pay5_apply v0 q l))))

/-- Entry o of the product of the row of means with the weight. -/
theorem product_apply (v0 : Vec Ideal S1x256x4096 .f32) (v7 : FVec Ideal S256x768 .f32) (o : Fin 768) :
    FloatOps.matmul dot_S1x256_S256x768_S1x768_1_0_0_1_n_n (some .fp32) (meanRow v0) v7
        (constant (F := Ideal) S1x768 .f32 0x00000000#32) (ix2 (0 : Fin 1) o)
      = ∑ q : Fin 256, Ideal.div (∑ l : Fin 4096, v0 (ix3 (0 : Fin 1) q l)) (Ideal.ofBits .f32 0x45800000#32) * v7 (ix2 q o) :=
  (Cert.PlainProduct.matmul_zero_entry dot_S1x256_S256x768_S1x768_1_0_0_1_n_n rfl rfl
      (fun _ _ => rfl) (fun _ _ => rfl) (fun _ _ => rfl) (fun _ _ => rfl) (meanRow v0) v7 (0 : Fin 1) o).trans
    (Finset.sum_congr rfl fun q _ => congrArg (· * v7 (ix2 q o)) (meanRow_apply v0 q))

/-- Filter entry o: the product's entry, minus the running mean, times the reciprocal square root of the
    running variance plus epsilon, times the scale, plus the shift, through the logistic. -/
theorem pay6_apply (v0 : Vec Ideal S1x256x4096 .f32) (v7 : Vec Ideal S256x768 .f32) (v10 v13 v19 v22 : Vec Ideal S1x768 .f32)
    (o : Fin 768) :
    k0_pay6 v0 v7 v10 v13 v19 v22 (ix2 (0 : Fin 1) o)
      = Ideal.logistic
          ((((∑ q : Fin 256, Ideal.div (∑ l : Fin 4096, v0 (ix3 (0 : Fin 1) q l)) (Ideal.ofBits .f32 0x45800000#32) * v7 (ix2 q o))
                - v10 (ix2 (0 : Fin 1) o))
              * Ideal.rsqrt (v13 (ix2 (0 : Fin 1) o) + Ideal.ofBits .f32 0x3727C5AC#32))
            * v19 (ix2 (0 : Fin 1) o)
          + v22 (ix2 (0 : Fin 1) o)) := by
  unfold k0_pay6
  simp only [shapeCast_self]
  exact congrArg
    (fun m => Ideal.logistic
      (((m - v10 (ix2 (0 : Fin 1) o)) * Ideal.rsqrt (v13 (ix2 (0 : Fin 1) o) + Ideal.ofBits .f32 0x3727C5AC#32))
          * v19 (ix2 (0 : Fin 1) o)
        + v22 (ix2 (0 : Fin 1) o)))
    (product_apply v0 v7 o)

end Cert.KernelIdeal.KPayload

end
-- ==== Proof.KPayAcc.lean ====
/-
  The three taps and the affine residual read at an index.

  Each filter column is a slice of the row of 768 filter entries turned into a column: entry p of the
  first, second, third column is entry p, 256 + p, 512 + p of the row. A tap multiplies a slab, row by
  row, by its column; the taps are added up one after the other; the result is scaled by one column
  and the middle slab, scaled by another, is added.
-/
import proofs.«155818_j60060822667451_1_alg».proof.Proof.KPayLayout
import proofs.«155818_j60060822667451_1_alg».proof.Proof.LibColumnLayout

noncomputable section

namespace Cert.KernelIdeal.KPayload

open Idealize.ShloMosaic Idealize.ShloMosaic.ValueIdx
open Cert.KernelIdeal Cert.KernelIdeal.Gen Cert.KernelIdeal.KPiece

/-! ## The slabs viewed as [256, 4096] -/

theorem pay10_apply (v : Vec Ideal S1x256x4096 .f32) (p : Fin 256) (l : Fin 4096) :
    k0_pay10 v (ix2 p l) = v (ix3 (0 : Fin 1) p l) :=
  cast_drop_apply v _ p l

theorem pay11_apply (v : Vec Ideal S1x256x4096 .f32) (p : Fin 256) (l : Fin 4096) :
    k0_pay11 v (ix2 p l) = v (ix3 (0 : Fin 1) p l) :=
  cast_drop_apply v _ p l

/-! ## The three filter columns -/

/-- Entry p of the first column is entry p of the row of filter entries. -/
theorem pay7_apply (v0 : Vec Ideal S1x256x4096 .f32) (v7 : Vec Ideal S256x768 .f32) (v10 v13 v19 v22 : Vec Ideal S1x768 .f32)
    (p : Fin 256) :
    k0_pay7 v0 v7 v10 v13 v19 v22 (ix2 p (0 : Fin 1))
      = k0_pay6 v0 v7 v10 v13 v19 v22 (ix2 (0 : Fin 1) (⟨p.val, by omega⟩ : Fin 768)) :=
  (transpose_row_apply _ _ p).trans
    (slice_row_apply 0 _ _ p (⟨p.val, by omega⟩ : Fin 768) (by show p.val = 0 + p.val; omega))

/-- Entry p of the second column is entry 256 + p of the row. -/
theorem pay8_apply (v0 : Vec Ideal S1x256x4096 .f32) (v7 : Vec Ideal S256x768 .f32) (v10 v13 v19 v22 : Vec Ideal S1x768 .f32)
    (p : Fin 256) :
    k0_pay8 v0 v7 v10 v13 v19 v22 (ix2 p (0 : Fin 1))
      = k0_pay6 v0 v7 v10 v13 v19 v22 (ix2 (0 : Fin 1) (⟨256 + p.val, by omega⟩ : Fin 768)) :=
  (transpose_row_apply _ _ p).trans
    (slice_row_apply 256 _ _ p (⟨256 + p.val, by omega⟩ : Fin 768) rfl)

/-- Entry p of the third column is entry 512 + p of the row. -/
theorem pay9_apply (v0 : Vec Ideal S1x256x4096 .f32) (v7 : Vec Ideal S256x768 .f32) (v10 v13 v19 v22 : Vec Ideal S1x768 .f32)
    (p : Fin 256) :
    k0_pay9 v0 v7 v10 v13 v19 v22 (ix2 p (0 : Fin 1))
      = k0_pay6 v0 v7 v10 v13 v19 v22 (ix2 (0 : Fin 1) (⟨512 + p.val, by omega⟩ : Fin 768)) :=
  (transpose_row_apply _ _ p).trans
    (slice_row_apply 512 _ _ p (⟨512 + p.val, by omega⟩ : Fin 768) rfl)

/-! ## The taps, accumulated -/

/-- The first tap: the column's entry p times the slab at (p, l). -/
theorem pay1_apply (v27 : FVec Ideal S256x1 .f32) (v33 : FVec Ideal S256x4096 .f32) (p : Fin 256) (l : Fin 4096) :
    k0_pay1 v27 v33 (ix2 p l) = v27 (ix2 p (0 : Fin 1)) * v33 (ix2 p l) := by
  show shapeCast S256x4096 (mulf (broadcastTo S256x4096 v27 broadcasts_S256x1_S256x4096) v33)
    shapeCasts_S256x4096_S256x4096 (ix2 p l) = _
  rw [shapeCast_self]
  exact congrArg (· * v33 (ix2 p l)) (Cert.ColumnLayout.broadcastTo_a1_ab_apply v27 _ p l)

/-- The second tap added to what was accumulated. -/
theorem pay2_apply (v1 : FVec Ideal S256x4096 .f32) (v29 : FVec Ideal S256x1 .f32) (v41 : Vec Ideal S256x4096 .f32)
    (p : Fin 256) (l : Fin 4096) :
    k0_pay2 v1 v29 v41 (ix2 p l) = v41 (ix2 p l) + v29 (ix2 p (0 : Fin 1)) * v1 (ix2 p l) := by
  show shapeCast S256x4096 (addf v41 (mulf (broadcastTo S256x4096 v29 broadcasts_S256x1_S256x4096) v1))
    shapeCasts_S256x4096_S256x4096 (ix2 p l) = _
  rw [shapeCast_self]
  exact congrArg (fun c => v41 (ix2 p l) + c * v1 (ix2 p l)) (Cert.ColumnLayout.broadcastTo_a1_ab_apply v29 _ p l)

/-- The third tap added to what was accumulated. -/
theorem pay3_apply (v31 : FVec Ideal S256x1 .f32) (v35 : FVec Ideal S256x4096 .f32) (v48 : Vec Ideal S256x4096 .f32)
    (p : Fin 256) (l : Fin 4096) :
    k0_pay3 v31 v35 v48 (ix2 p l) = v48 (ix2 p l) + v31 (ix2 p (0 : Fin 1)) * v35 (ix2 p l) := by
  show shapeCast S256x4096 (addf v48 (mulf (broadcastTo S256x4096 v31 broadcasts_S256x1_S256x4096) v35))
    shapeCasts_S256x4096_S256x4096 (ix2 p l) = _
  rw [shapeCast_self]
  exact congrArg (fun c => v48 (ix2 p l) + c * v35 (ix2 p l)) (Cert.ColumnLayout.broadcastTo_a1_ab_apply v31 _ p l)

/-- A column cast to its own shape and spread over the lanes reads its entry p. -/
theorem column_spread_apply (v : Vec Ideal S256x1 .f32) (p : Fin 256) (l : Fin 4096) :
    broadcastTo S256x4096 (shapeCast S256x1 v shapeCasts_S256x1_S256x1) broadcasts_S256x1_S256x4096 (ix2 p l)
      = v (ix2 p (0 : Fin 1)) :=
  (Cert.ColumnLayout.broadcastTo_a1_ab_apply _ _ p l).trans (congrFun (shapeCast_self v _) _)

/-- The result block: the accumulated taps scaled by one column, plus the middle slab scaled by another. -/
theorem pay4_apply (v1 : FVec Ideal S256x4096 .f32) (v55 : Vec Ideal S256x4096 .f32) (v56 v60 : Vec Ideal S256x1 .f32)
    (p : Fin 256) (l : Fin 4096) :
    k0_pay4 v1 v55 v56 v60 (ix3 (0 : Fin 1) p l)
      = v55 (ix2 p l) * v56 (ix2 p (0 : Fin 1)) + v1 (ix2 p l) * v60 (ix2 p (0 : Fin 1)) := by
  show shapeCast S1x256x4096
      (addf
        (mulf v55 (broadcastTo S256x4096 (shapeCast S256x1 v56 shapeCasts_S256x1_S256x1) broadcasts_S256x1_S256x4096))
        (mulf v1 (broadcastTo S256x4096 (shapeCast S256x1 v60 shapeCasts_S256x1_S256x1) broadcasts_S256x1_S256x4096)))
      shapeCasts_S256x4096_S1x256x4096 (ix3 (0 : Fin 1) p l) = _
  rw [cast_add_apply]
  show v55 (ix2 p l)
        * broadcastTo S256x4096 (shapeCast S256x1 v56 shapeCasts_S256x1_S256x1) broadcasts_S256x1_S256x4096 (ix2 p l)
      + v1 (ix2 p l)
        * broadcastTo S256x4096 (shapeCast S256x1 v60 shapeCasts_S256x1_S256x1) broadcasts_S256x1_S256x4096 (ix2 p l) = _
  rw [column_spread_apply, column_spread_apply]

end Cert.KernelIdeal.KPayload

end
-- ==== Proof.KPayload.lean ====
/-
  The kernel body's result block read at an index, at the ideal values.

  The block of the padded sample has the two spatial axes folded into one lane axis of 4096
  (lane = h * 64 + w). A sum over the lanes is the double sum over h and w. The middle slab's rows are
  the input's own rows, so its lane means are the channel means of the specification, the row of 768
  filter entries is the specification's filter, and the three taps with the affine residual give the
  specification's result entry by entry.
-/
import proofs.«155818_j60060822667451_1_alg».proof.Proof.KPiece
import proofs.«155818_j60060822667451_1_alg».proof.Proof.Spec
import proofs.«155818_j60060822667451_1_alg».proof.Proof.KPayLayout
import proofs.«155818_j60060822667451_1_alg».proof.Proof.KPayFilter
import proofs.«155818_j60060822667451_1_alg».proof.Proof.KPayAcc

noncomputable section

namespace Cert.KernelIdeal.KPayload

open Idealize.ShloMosaic Idealize.ShloMosaic.ValueIdx Cert.KernelIdeal Cert.KernelIdeal.Gen Cert.KernelIdeal.KPiece

/-- A sum over the 4096 lanes is the double sum over the 64 × 64 field, lane = h * 64 + w. -/
theorem sum_lanes (f : Fin 4096 → EReal) :
    ∑ l : Fin 4096, f l = ∑ h : Fin 64, ∑ w : Fin 64, f (⟨h.val * 64 + w.val, by omega⟩ : Fin 4096) :=
  ((Equiv.sum_comp (finProdFinEquiv (m := 64) (n := 64)) f).symm.trans
      (Fintype.sum_prod_type fun hw : Fin 64 × Fin 64 => f (finProdFinEquiv hw))).trans
    (Finset.sum_congr rfl fun h _ => Finset.sum_congr rfl fun w _ => congrArg f (Fin.ext (by
      show w.val + 64 * h.val = h.val * 64 + w.val
      omega)))

/-- Filter entry o of the middle slab of the padded sample's block is the specification's filter entry o. -/
theorem filter_entry (x0 : Vec Ideal S1x258x4096 .f32) (x1 : Vec Ideal S256x768 .f32) (x2 x3 x4 x5 : Vec Ideal S1x768 .f32)
    (X : FVec Ideal Cert.Spec.SX .f32) (cw : FVec Ideal Cert.Spec.SW .f32) (bw bb mean var : FVec Ideal Cert.Spec.SV .f32)
    (b : Fin 32)
    (h0 : ∀ (r : Fin 258) (h w : Fin 64), x0 (ix3 (0 : Fin 1) r (⟨h.val * 64 + w.val, by omega⟩ : Fin 4096)) = Cert.Spec.padT X (ix4 b r h w))
    (h1 : ∀ (q : Fin 256) (o : Fin 768), x1 (ix2 q o) = cw (ix2 o q))
    (h2 : ∀ o : Fin 768, x2 (ix2 (0 : Fin 1) o) = bw (ix1 o))
    (h3 : ∀ o : Fin 768, x3 (ix2 (0 : Fin 1) o) = bb (ix1 o))
    (h4 : ∀ o : Fin 768, x4 (ix2 (0 : Fin 1) o) = mean (ix1 o))
    (h5 : ∀ o : Fin 768, x5 (ix2 (0 : Fin 1) o) = var (ix1 o))
    (o : Fin 768) :
    k0_pay6 (slab1 x0) x1 x4 x5 x2 x3 (ix2 (0 : Fin 1) o) = Cert.Spec.filt (Cert.Spec.gap X b) cw bw bb mean var o := by
  have hmean : ∀ q : Fin 256,
      Ideal.div (∑ l : Fin 4096, slab1 x0 (ix3 (0 : Fin 1) q l)) (Ideal.ofBits .f32 0x45800000#32) = Cert.Spec.gap X b q :=
    fun q => congrArg (fun s => Ideal.div s (Ideal.ofBits .f32 0x45800000#32))
      ((sum_lanes fun l => slab1 x0 (ix3 (0 : Fin 1) q l)).trans
        (Finset.sum_congr rfl fun h _ => Finset.sum_congr rfl fun w _ =>
          (slab1_apply x0 q _).trans ((h0 _ h w).trans (Cert.Spec.padT_mid X b q h w))))
  rw [pay6_apply, h2, h3, h4, h5]
  unfold Cert.Spec.filt
  exact congrArg
    (fun m => Ideal.logistic
      (((m - mean (ix1 o)) * Ideal.rsqrt (var (ix1 o) + Ideal.ofBits .f32 0x3727C5AC#32)) * bw (ix1 o) + bb (ix1 o)))
    (Finset.sum_congr rfl fun q _ => by rw [hmean q, h1 q o])

theorem body_apply (x0 : Vec Ideal S1x258x4096 .f32) (x1 : Vec Ideal S256x768 .f32) (x2 x3 x4 x5 : Vec Ideal S1x768 .f32)
    (x6 x7 : Vec Ideal S256x1 .f32)
    (X : FVec Ideal Cert.Spec.SX .f32) (cw : FVec Ideal Cert.Spec.SW .f32) (bw bb mean var : FVec Ideal Cert.Spec.SV .f32)
    (gamma beta : FVec Ideal Cert.Spec.SG .f32) (b : Fin 32)
    (h0 : ∀ (r : Fin 258) (h w : Fin 64), x0 (ix3 (0 : Fin 1) r (⟨h.val * 64 + w.val, by omega⟩ : Fin 4096)) = Cert.Spec.padT X (ix4 b r h w))
    (h1 : ∀ (q : Fin 256) (o : Fin 768), x1 (ix2 q o) = cw (ix2 o q))
    (h2 : ∀ o : Fin 768, x2 (ix2 (0 : Fin 1) o) = bw (ix1 o))
    (h3 : ∀ o : Fin 768, x3 (ix2 (0 : Fin 1) o) = bb (ix1 o))
    (h4 : ∀ o : Fin 768, x4 (ix2 (0 : Fin 1) o) = mean (ix1 o))
    (h5 : ∀ o : Fin 768, x5 (ix2 (0 : Fin 1) o) = var (ix1 o))
    (h6 : ∀ p : Fin 256, x6 (ix2 p (0 : Fin 1)) = gamma (ix3 p (0 : Fin 1) (0 : Fin 1)))
    (h7 : ∀ p : Fin 256, x7 (ix2 p (0 : Fin 1)) = beta (ix3 p (0 : Fin 1) (0 : Fin 1)))
    (p : Fin 256) (h w : Fin 64) :
    body x0 x1 x2 x3 x4 x5 x6 x7 (ix3 (0 : Fin 1) p (⟨h.val * 64 + w.val, by omega⟩ : Fin 4096))
      = Cert.Spec.outAt X cw bw bb mean var gamma beta b p h w := by
  have hF := filter_entry x0 x1 x2 x3 x4 x5 X cw bw bb mean var b h0 h1 h2 h3 h4 h5
  -- the three slabs at (p, lane)
  have hS0 : k0_pay10 (slab0 x0) (ix2 p (⟨h.val * 64 + w.val, by omega⟩ : Fin 4096))
      = Cert.Spec.padT X (ix4 b (⟨p.val, by omega⟩ : Fin 258) h w) :=
    (pay10_apply _ p _).trans ((slab0_apply x0 p _).trans (h0 _ h w))
  have hS1 : k0_pay5 (slab1 x0) (ix2 p (⟨h.val * 64 + w.val, by omega⟩ : Fin 4096)) = X (ix4 b p h w) :=
    (pay5_apply _ p _).trans ((slab1_apply x0 p _).trans ((h0 _ h w).trans (Cert.Spec.padT_mid X b p h w)))
  have hS2 : k0_pay11 (slab2 x0) (ix2 p (⟨h.val * 64 + w.val, by omega⟩ : Fin 4096))
      = Cert.Spec.padT X (ix4 b (⟨p.val + 2, by omega⟩ : Fin 258) h w) :=
    (pay11_apply _ p _).trans ((slab2_apply x0 p _).trans (h0 _ h w))
  unfold body
  rw [pay4_apply, pay3_apply, pay2_apply, pay1_apply, pay7_apply, pay8_apply, pay9_apply, hF, hF, hF, hS0, hS1, hS2,
    h6, h7]
  rfl

end Cert.KernelIdeal.KPayload

end
-- ==== Proof.KIdx.lean ====
/-
  The pipeline's index maps over the grid of 32 points: the padded input's and the output's blocks move
  with the sample, one block per grid point; every other window is its whole array at every point.
-/
import proofs.«155818_j60060822667451_1_alg».proof.Proof.Gen.KernelIdeal.Launch

set_option maxRecDepth 16384

noncomputable section

namespace Cert.KernelIdeal.KIdx

open Idealize.ShloMosaic Idealize.ShloMosaic.TcCoe Idealize.ShloMosaic.Tactic
open Idealize.SL Idealize.SL.Sem
open Cert.KernelIdeal Cert.KernelIdeal.Gen

theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 3) = t.val ∧ win0_8.index t (1 : Fin 3) = 0 ∧ win0_8.index t (2 : Fin 3) = 0 :=
  (by decide +kernel : ∀ t : Fin grid0.N, _)

/-- The sample a grid point works on. -/
def bOf (t : Fin cfg0.N) : Fin 32 := ⟨t.val, Nat.lt_of_lt_of_eq t.isLt N_0⟩

theorem bOf_val (t : Fin cfg0.N) : (bOf t).val = t.val := rfl

end Cert.KernelIdeal.KIdx

end
-- ==== Proof.KReads.lean ====
/-
  A window's block read through its rectangle, over an ARBITRARY array: the padded input's block at grid
  point t is sample t's 258 rows; the seven parameter windows' blocks are their whole arrays; and the
  output's block at point t sits at sample t of the result array.
-/
import proofs.«155818_j60060822667451_1_alg».proof.Proof.KIdx
import proofs.«155818_j60060822667451_1_alg».proof.Proof.Gen.KernelIdeal.Points
import Idealize.ShloMosaic.Lib.Pipeline.Value
import Idealize.ShloMosaic.Lib.ValueIdx

set_option maxRecDepth 16384

noncomputable section

namespace Cert.KernelIdeal.KReads

open Idealize.ShloMosaic Idealize.ShloMosaic.TcCoe Idealize.ShloMosaic.Tactic
open Idealize.SL Idealize.SL.Sem
open Cert.KernelIdeal Cert.KernelIdeal.Gen

open Idealize.ShloMosaic.ValueIdx Cert.KernelIdeal.KIdx

variable {Val : EltTy → Type}

theorem read0 (c : Dev nD) (A : Buf Val ((cfg0.win 0).arr.view.loc (c.tc : Thread nD τ))) (t : Fin cfg0.N)
    (r : Fin 258) (k : Fin 4096) :
    ((cfg0.win 0).blk t).view.read Val A (ix3 (0 : Fin 1) r k) = A (ix3 (bOf t) r k) := by
  obtain ⟨e0, e1, e2, -⟩ := idx_facts t
  rw [View.read_apply]
  refine congrArg A (funext fun a => Fin.ext ?_)
  match a with
  | ⟨0, _⟩ => show win0_0.index t (0 : Fin 3) * 1 + 1 * 0 = t.val; omega
  | ⟨1, _⟩ => show win0_0.index t (1 : Fin 3) * 258 + 1 * r.val = r.val; omega
  | ⟨2, _⟩ => show win0_0.index t (2 : Fin 3) * 4096 + 1 * k.val = k.val; omega

theorem read1 (c : Dev nD) (A : Buf Val ((cfg0.win 1).arr.view.loc (c.tc : Thread nD τ))) (t : Fin cfg0.N)
    (q : Fin 256) (o : Fin 768) :
    ((cfg0.win 1).blk t).view.read Val A (ix2 q o) = A (ix2 q o) := by
  have e := idx_facts t
  rw [View.read_apply]
  refine congrArg A (funext fun a => Fin.ext ?_)
  match a with
  | ⟨0, _⟩ => show win0_1.index t (0 : Fin 2) * 256 + 1 * q.val = q.val; omega
  | ⟨1, _⟩ => show win0_1.index t (1 : Fin 2) * 768 + 1 * o.val = o.val; omega

theorem read2 (c : Dev nD) (A : Buf Val ((cfg0.win 2).arr.view.loc (c.tc : Thread nD τ))) (t : Fin cfg0.N)
    (z : Fin 1) (o : Fin 768) :
    ((cfg0.win 2).blk t).view.read Val A (ix2 z o) = A (ix2 z o) := by
  have e := idx_facts t
  rw [View.read_apply]
  refine congrArg A (funext fun a => Fin.ext ?_)
  match a with
  | ⟨0, _⟩ => show win0_2.index t (0 : Fin 2) * 1 + 1 * z.val = z.val; omega
  | ⟨1, _⟩ => show win0_2.index t (1 : Fin 2) * 768 + 1 * o.val = o.val; omega

theorem read3 (c : Dev nD) (A : Buf Val ((cfg0.win 3).arr.view.loc (c.tc : Thread nD τ))) (t : Fin cfg0.N)
    (z : Fin 1) (o : Fin 768) :
    ((cfg0.win 3).blk t).view.read Val A (ix2 z o) = A (ix2 z o) := by
  have e := idx_facts t
  rw [View.read_apply]
  refine congrArg A (funext fun a => Fin.ext ?_)
  match a with
  | ⟨0, _⟩ => show win0_3.index t (0 : Fin 2) * 1 + 1 * z.val = z.val; omega
  | ⟨1, _⟩ => show win0_3.index t (1 : Fin 2) * 768 + 1 * o.val = o.val; omega

theorem read4 (c : Dev nD) (A : Buf Val ((cfg0.win 4).arr.view.loc (c.tc : Thread nD τ))) (t : Fin cfg0.N)
    (z : Fin 1) (o : Fin 768) :
    ((cfg0.win 4).blk t).view.read Val A (ix2 z o) = A (ix2 z o) := by
  have e := idx_facts t
  rw [View.read_apply]
  refine congrArg A (funext fun a => Fin.ext ?_)
  match a with
  | ⟨0, _⟩ => show win0_4.index t (0 : Fin 2) * 1 + 1 * z.val = z.val; omega
  | ⟨1, _⟩ => show win0_4.index t (1 : Fin 2) * 768 + 1 * o.val = o.val; omega

theorem read5 (c : Dev nD) (A : Buf Val ((cfg0.win 5).arr.view.loc (c.tc : Thread nD τ))) (t : Fin cfg0.N)
    (z : Fin 1) (o : Fin 768) :
    ((cfg0.win 5).blk t).view.read Val A (ix2 z o) = A (ix2 z o) := by
  have e := idx_facts t
  rw [View.read_apply]
  refine congrArg A (funext fun a => Fin.ext ?_)
  match a with
  | ⟨0, _⟩ => show win0_5.index t (0 : Fin 2) * 1 + 1 * z.val = z.val; omega
  | ⟨1, _⟩ => show win0_5.index t (1 : Fin 2) * 768 + 1 * o.val = o.val; omega

theorem read6 (c : Dev nD) (A : Buf Val ((cfg0.win 6).arr.view.loc (c.tc : Thread nD τ))) (t : Fin cfg0.N)
    (p : Fin 256) (z : Fin 1) :
    ((cfg0.win 6).blk t).view.read Val A (ix2 p z) = A (ix2 p z) := by
  have e := idx_facts t
  rw [View.read_apply]
  refine congrArg A (funext fun a => Fin.ext ?_)
  match a with
  | ⟨0, _⟩ => show win0_6.index t (0 : Fin 2) * 256 + 1 * p.val = p.val; omega
  | ⟨1, _⟩ => show win0_6.index t (1 : Fin 2) * 1 + 1 * z.val = z.val; omega

theorem read7 (c : Dev nD) (A : Buf Val ((cfg0.win 7).arr.view.loc (c.tc : Thread nD τ))) (t : Fin cfg0.N)
    (p : Fin 256) (z : Fin 1) :
    ((cfg0.win 7).blk t).view.read Val A (ix2 p z) = A (ix2 p z) := by
  have e := idx_facts t
  rw [View.read_apply]
  refine congrArg A (funext fun a => Fin.ext ?_)
  match a with
  | ⟨0, _⟩ => show win0_7.index t (0 : Fin 2) * 256 + 1 * p.val = p.val; omega
  | ⟨1, _⟩ => show win0_7.index t (1 : Fin 2) * 1 + 1 * z.val = z.val; omega

/-- Where the output's block at point t sits in the result array. -/
theorem emb8 (t : Fin cfg0.N) (z : Fin 1) (p : Fin 256) (k : Fin 4096) :
    ((cfg0.win 8).blk t).view.emb (ix3 z p k) = ix3 (bOf t) p k := by
  have e := idx_facts t
  funext a
  apply Fin.ext
  match a with
  | ⟨0, _⟩ => show win0_8.index t (0 : Fin 3) * 1 + 1 * z.val = t.val; have := z.isLt; omega
  | ⟨1, _⟩ => show win0_8.index t (1 : Fin 3) * 256 + 1 * p.val = p.val; omega
  | ⟨2, _⟩ => show win0_8.index t (2 : Fin 3) * 4096 + 1 * k.val = k.val; omega

/-- An index of the result array is in point t's block iff each coordinate is in the block's range. -/
theorem mem_blk8 (t : Fin cfg0.N) (i : S32x256x4096.Idx) :
    i ∈ ((cfg0.win 8).blk t).view.set ↔ ∀ a : Fin 3, win0_8.index t a * S1x256x4096.size a ≤ (i a).val ∧ (i a).val < win0_8.index t a * S1x256x4096.size a + S1x256x4096.size a := by
  show i ∈ ((View.whole main_v9).slice (win0_8.rect t)).set ↔ _
  rw [View.set_slice_whole, Rect.mem_set_unit]
  exact Iff.rfl

/-- Every index of the result array is in the block of the point of its sample. -/
theorem cover8 (i : S32x256x4096.Idx) :
    ∃ t : Fin cfg0.N, (cfg0.win 8).flush t = true ∧ i ∈ ((cfg0.win 8).blk t).view.set := by
  have hi0 : (i 0).val < 32 := (i 0).isLt
  have hi1 : (i 1).val < 256 := (i 1).isLt
  have hi2 : (i 2).val < 4096 := (i 2).isLt
  let t : Fin cfg0.N := ⟨(i 0).val, Nat.lt_of_lt_of_eq hi0 N_0.symm⟩
  have e := idx_facts t
  refine ⟨t, flush0_8 t, ?_⟩
  rw [mem_blk8]
  intro a
  match a with
  | ⟨0, _⟩ => show win0_8.index t (0 : Fin 3) * 1 ≤ (i 0).val ∧ (i 0).val < win0_8.index t (0 : Fin 3) * 1 + 1; have : t.val = (i 0).val := rfl; omega
  | ⟨1, _⟩ => show win0_8.index t (1 : Fin 3) * 256 ≤ (i 1).val ∧ (i 1).val < win0_8.index t (1 : Fin 3) * 256 + 256; omega
  | ⟨2, _⟩ => show win0_8.index t (2 : Fin 3) * 4096 ≤ (i 2).val ∧ (i 2).val < win0_8.index t (2 : Fin 3) * 4096 + 4096; omega

end Cert.KernelIdeal.KReads

end
-- ==== Proof.KHost.lean ====
/-
  The arrays the region finds, as functions of the argument arrays: the padded input with its two
  spatial axes folded into one, the weight transposed, the four normalisation vectors as rows and
  the two affine parameters as columns — and each read at an index by coordinates.
-/
import proofs.«155818_j60060822667451_1_alg».proof.Proof.Gen.KernelIdeal.Frame
import proofs.«155818_j60060822667451_1_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.KHost

open Idealize.ShloMosaic Idealize.ShloMosaic.TcCoe Idealize.ShloMosaic.Tactic
open Idealize.SL Idealize.SL.Sem
open Cert.KernelIdeal Cert.KernelIdeal.Gen

open Idealize.ShloMosaic.StableHlo Idealize.ShloMosaic.ValueIdx
variable (m : (ℓ : Loc nD τ sig) → Buf (Elt Ideal) ℓ)

/-- The staged input: the reflect-padded argument, [32,258,64,64] read as [32,258,4096]. -/
theorem V_v1 (c : Dev nD) : (V m c main_v1 : S32x258x4096.Idx → EReal)
    = shapeCast S32x258x4096 (Cert.Spec.padT (m ((c : Thread nD τ).loc main_arg0))) shapeCasts_S32x258x64x64_S32x258x4096 := by
  dsimp only [V, V0]
  simp only [hostOps0, hostOps0_1, hostOps0_2, List.flatten_cons, List.flatten_nil, List.append_nil, List.cons_append, List.nil_append]
  after_results
  simp only [TRef.toBuf, TRef.ofBuf, cast_cast, cast_eq]
  unfold Cert.Spec.padT Cert.Spec.padFront
  rfl

theorem V_v2 (c : Dev nD) : (V m c main_v2 : S256x768.Idx → EReal)
    = transpose S256x768 [1, 0] (m ((c : Thread nD τ).loc main_arg1)) transposes_S768x256_S256x768_1_0 := by
  dsimp only [V, V0]
  simp only [hostOps0, hostOps0_1, hostOps0_2, List.flatten_cons, List.flatten_nil, List.append_nil, List.cons_append, List.nil_append]
  after_results

theorem V_v3 (c : Dev nD) : (V m c main_v3 : S1x768.Idx → EReal)
    = shapeCast S1x768 (m ((c : Thread nD τ).loc main_arg2)) shapeCasts_S768_S1x768 := by
  dsimp only [V, V0]
  simp only [hostOps0, hostOps0_1, hostOps0_2, List.flatten_cons, List.flatten_nil, List.append_nil, List.cons_append, List.nil_append]
  after_results
  rfl

theorem V_v4 (c : Dev nD) : (V m c main_v4 : S1x768.Idx → EReal)
    = shapeCast S1x768 (m ((c : Thread nD τ).loc main_arg3)) shapeCasts_S768_S1x768 := by
  dsimp only [V, V0]
  simp only [hostOps0, hostOps0_1, hostOps0_2, List.flatten_cons, List.flatten_nil, List.append_nil, List.cons_append, List.nil_append]
  after_results
  rfl

theorem V_v5 (c : Dev nD) : (V m c main_v5 : S1x768.Idx → EReal)
    = shapeCast S1x768 (m ((c : Thread nD τ).loc main_arg4)) shapeCasts_S768_S1x768 := by
  dsimp only [V, V0]
  simp only [hostOps0, hostOps0_1, hostOps0_2, List.flatten_cons, List.flatten_nil, List.append_nil, List.cons_append, List.nil_append]
  after_results
  rfl

theorem V_v6 (c : Dev nD) : (V m c main_v6 : S1x768.Idx → EReal)
    = shapeCast S1x768 (m ((c : Thread nD τ).loc main_arg5)) shapeCasts_S768_S1x768 := by
  dsimp only [V, V0]
  simp only [hostOps0, hostOps0_1, hostOps0_2, List.flatten_cons, List.flatten_nil, List.append_nil, List.cons_append, List.nil_append]
  after_results
  rfl

theorem V_v7 (c : Dev nD) : (V m c main_v7 : S256x1.Idx → EReal)
    = shapeCast S256x1 (m ((c : Thread nD τ).loc main_arg6)) shapeCasts_S256x1x1_S256x1 := by
  dsimp only [V, V0]
  simp only [hostOps0, hostOps0_1, hostOps0_2, List.flatten_cons, List.flatten_nil, List.append_nil, List.cons_append, List.nil_append]
  after_results
  rfl

theorem V_v8 (c : Dev nD) : (V m c main_v8 : S256x1.Idx → EReal)
    = shapeCast S256x1 (m ((c : Thread nD τ).loc main_arg7)) shapeCasts_S256x1x1_S256x1 := by
  dsimp only [V, V0]
  simp only [hostOps0, hostOps0_1, hostOps0_2, List.flatten_cons, List.flatten_nil, List.append_nil, List.cons_append, List.nil_append]
  after_results
  rfl

end Cert.KernelIdeal.KHost

end
-- ==== Proof.KAt.lean ====
/-
  Reading the re-laid arrays at an index by coordinates: the two spatial axes folded into one lane
  axis (lane = h * 64 + w) and unfolded again, the weight transposed, a vector as a one-row matrix, a
  [256,1,1] parameter as a column.
-/
import proofs.«155818_j60060822667451_1_alg».proof.KernelIdeal
import Idealize.ShloMosaic.Lib.Pipeline.Value
import Idealize.ShloMosaic.Lib.ValueIdx

set_option maxRecDepth 16384

noncomputable section

namespace Cert.KernelIdeal.KAt

open Idealize.ShloMosaic Idealize.ShloMosaic.TcCoe Idealize.ShloMosaic.Tactic
open Idealize.SL Idealize.SL.Sem
open Cert.KernelIdeal

open Idealize.ShloMosaic.ValueIdx

/-- The lane of spatial position (h, w). -/
def lane (h w : Fin 64) : Fin 4096 := ⟨h.val * 64 + w.val, by have := h.isLt; have := w.isLt; omega⟩
/-- The spatial row and column of a lane. -/
def hOf (k : Fin 4096) : Fin 64 := ⟨k.val / 64, by have := k.isLt; omega⟩
def wOf (k : Fin 4096) : Fin 64 := ⟨k.val % 64, Nat.mod_lt _ (by decide)⟩

theorem lane_hw (k : Fin 4096) : lane (hOf k) (wOf k) = k :=
  Fin.ext (by show k.val / 64 * 64 + k.val % 64 = k.val; omega)
theorem hOf_lane (h w : Fin 64) : hOf (lane h w) = h :=
  Fin.ext (by show (h.val * 64 + w.val) / 64 = h.val; have := w.isLt; omega)
theorem wOf_lane (h w : Fin 64) : wOf (lane h w) = w :=
  Fin.ext (by show (h.val * 64 + w.val) % 64 = w.val; have := w.isLt; omega)

variable {α : Type}

/-- [32,258,64,64] read as [32,258,4096]. -/
theorem fold_at (Xp : S32x258x64x64.Idx → α) (hc : S32x258x64x64.ShapeCasts S32x258x4096) (b : Fin 32) (r : Fin 258)
    (h w : Fin 64) : shapeCast S32x258x4096 Xp hc (ix3 b r (lane h w)) = Xp (ix4 b r h w) :=
  shapeCast_apply Xp hc (ix3 b r (lane h w)) (ix4 b r h w) (by
    rw [Shape.rowMajor_val_four, Shape.rowMajor_val_three]
    show ((b.val * 258 + r.val) * 64 + h.val) * 64 + w.val = (b.val * 258 + r.val) * 4096 + (h.val * 64 + w.val)
    omega)

/-- [32,256,4096] read as [32,256,64,64]. -/
theorem unfold_at (G : S32x256x4096.Idx → α) (hc : S32x256x4096.ShapeCasts S32x256x64x64) (b : Fin 32) (c : Fin 256)
    (h w : Fin 64) : shapeCast S32x256x64x64 G hc (ix4 b c h w) = G (ix3 b c (lane h w)) :=
  shapeCast_apply G hc (ix4 b c h w) (ix3 b c (lane h w)) (by
    rw [Shape.rowMajor_val_four, Shape.rowMajor_val_three]
    show (b.val * 256 + c.val) * 4096 + (h.val * 64 + w.val) = ((b.val * 256 + c.val) * 64 + h.val) * 64 + w.val
    omega)

/-- The [768,256] weight transposed to [256,768]. -/
theorem transp_at (W : S768x256.Idx → α) (ht : S768x256.Transposes [1, 0] S256x768) (q : Fin 256) (o : Fin 768) :
    transpose S256x768 [1, 0] W ht (ix2 q o) = W (ix2 o q) :=
  transpose_apply [1, 0] W ht (ix2 q o) (ix2 o q) (fun b => by
    match b with
    | ⟨0, _⟩ => rfl
    | ⟨1, _⟩ => rfl)

/-- A vector of 768 as a one-row matrix. -/
theorem row_at (v : S768.Idx → α) (hc : S768.ShapeCasts S1x768) (o : Fin 768) :
    shapeCast S1x768 v hc (ix2 (0 : Fin 1) o) = v (ix1 o) :=
  shapeCast_apply v hc (ix2 (0 : Fin 1) o) (ix1 o) (by
    rw [Shape.rowMajor_val_one, Shape.rowMajor_val_two]
    show o.val = 0 * 768 + o.val
    omega)

/-- A [256,1,1] parameter as a [256,1] column. -/
theorem col_at (g : S256x1x1.Idx → α) (hc : S256x1x1.ShapeCasts S256x1) (p : Fin 256) :
    shapeCast S256x1 g hc (ix2 p (0 : Fin 1)) = g (ix3 p (0 : Fin 1) (0 : Fin 1)) :=
  shapeCast_apply g hc (ix2 p (0 : Fin 1)) (ix3 p (0 : Fin 1) (0 : Fin 1)) (by
    rw [Shape.rowMajor_val_three, Shape.rowMajor_val_two]
    show (p.val * 1 + 0) * 1 + 0 = p.val * 1 + 0
    omega)

end Cert.KernelIdeal.KAt

end
-- ==== Proof.KBlocks.lean ====
/-
  From one grid point's block to the whole result array. At point t the eight input blocks are: sample t's
  rows of the padded input (lanes folded), the transposed weight, the four normalisation rows, the two affine
  columns — so the body's block is the specification at sample t; the 32 blocks tile the result array, which
  therefore ends at the specification with its two spatial axes folded into one lane axis.
-/
import proofs.«155818_j60060822667451_1_alg».proof.Proof.Gen.KernelIdeal.Frame
import proofs.«155818_j60060822667451_1_alg».proof.Proof.KPayload
import proofs.«155818_j60060822667451_1_alg».proof.Proof.KReads
import proofs.«155818_j60060822667451_1_alg».proof.Proof.KHost
import proofs.«155818_j60060822667451_1_alg».proof.Proof.KAt
import proofs.«155818_j60060822667451_1_alg».proof.Proof.Spec
import Idealize.ShloMosaic.Lib.Pipeline.Value
import Idealize.ShloMosaic.Lib.ValueIdx

set_option maxRecDepth 16384

noncomputable section

namespace Cert.KernelIdeal.KBlocks

open Idealize.ShloMosaic Idealize.ShloMosaic.TcCoe Idealize.ShloMosaic.Tactic
open Idealize.SL Idealize.SL.Sem
open Cert.KernelIdeal Cert.KernelIdeal.Gen

open Idealize.ShloMosaic.ValueIdx Cert.KernelIdeal.KAt Cert.KernelIdeal.KIdx Cert.KernelIdeal.KReads
open Idealize.ShloMosaic.Pipeline (Dat)

variable (m : (ℓ : Loc nD τ sig) → Buf (Elt Ideal) ℓ)

/-- The result array: the specification with (h, w) folded into the lane h * 64 + w. -/
def G3 (c : Dev nD) : S32x256x4096.Idx → EReal := fun i =>
  Cert.Spec.outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (i 0) (i 1) (hOf (i 2)) (wOf (i 2))

theorem G3_ix3 (c : Dev nD) (b : Fin 32) (p : Fin 256) (k : Fin 4096) :
    G3 m c (ix3 b p k) = Cert.Spec.outAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) b p (hOf k) (wOf k) := rfl

/-- Sample t's rows of the padded input, lanes folded. -/
theorem hyp0 (c : Dev nD) (t : Fin cfg0.N) (r : Fin 258) (h w : Fin 64) :
    iblk m c 0 t (ix3 (0 : Fin 1) r (⟨h.val * 64 + w.val, by omega⟩ : Fin 4096))
      = Cert.Spec.padT (m ((c : Thread nD τ).loc main_arg0)) (ix4 (bOf t) r h w) := by
  unfold iblk
  refine (read0 c (V m c (Pipeline.arrRef spec0 0)) t r _).trans ?_
  show V m c main_v1 (ix3 (bOf t) r (lane h w)) = _
  rw [KHost.V_v1]
  exact fold_at _ _ (bOf t) r h w

theorem hyp1 (c : Dev nD) (t : Fin cfg0.N) (q : Fin 256) (o : Fin 768) :
    iblk m c 1 t (ix2 q o) = (m ((c : Thread nD τ).loc main_arg1)) (ix2 o q) := by
  unfold iblk
  refine (read1 c (V m c (Pipeline.arrRef spec0 1)) t q o).trans ?_
  show V m c main_v2 (ix2 q o) = _
  rw [KHost.V_v2]
  exact transp_at _ _ q o

theorem hyp2 (c : Dev nD) (t : Fin cfg0.N) (o : Fin 768) :
    iblk m c 2 t (ix2 (0 : Fin 1) o) = (m ((c : Thread nD τ).loc main_arg2)) (ix1 o) := by
  unfold iblk
  refine (read2 c (V m c (Pipeline.arrRef spec0 2)) t 0 o).trans ?_
  show V m c main_v3 (ix2 (0 : Fin 1) o) = _
  rw [KHost.V_v3]
  exact row_at _ _ o

theorem hyp3 (c : Dev nD) (t : Fin cfg0.N) (o : Fin 768) :
    iblk m c 3 t (ix2 (0 : Fin 1) o) = (m ((c : Thread nD τ).loc main_arg3)) (ix1 o) := by
  unfold iblk
  refine (read3 c (V m c (Pipeline.arrRef spec0 3)) t 0 o).trans ?_
  show V m c main_v4 (ix2 (0 : Fin 1) o) = _
  rw [KHost.V_v4]
  exact row_at _ _ o

theorem hyp4 (c : Dev nD) (t : Fin cfg0.N) (o : Fin 768) :
    iblk m c 4 t (ix2 (0 : Fin 1) o) = (m ((c : Thread nD τ).loc main_arg4)) (ix1 o) := by
  unfold iblk
  refine (read4 c (V m c (Pipeline.arrRef spec0 4)) t 0 o).trans ?_
  show V m c main_v5 (ix2 (0 : Fin 1) o) = _
  rw [KHost.V_v5]
  exact row_at _ _ o

theorem hyp5 (c : Dev nD) (t : Fin cfg0.N) (o : Fin 768) :
    iblk m c 5 t (ix2 (0 : Fin 1) o) = (m ((c : Thread nD τ).loc main_arg5)) (ix1 o) := by
  unfold iblk
  refine (read5 c (V m c (Pipeline.arrRef spec0 5)) t 0 o).trans ?_
  show V m c main_v6 (ix2 (0 : Fin 1) o) = _
  rw [KHost.V_v6]
  exact row_at _ _ o

theorem hyp6 (c : Dev nD) (t : Fin cfg0.N) (p : Fin 256) :
    iblk m c 6 t (ix2 p (0 : Fin 1)) = (m ((c : Thread nD τ).loc main_arg6)) (ix3 p (0 : Fin 1) (0 : Fin 1)) := by
  unfold iblk
  refine (read6 c (V m c (Pipeline.arrRef spec0 6)) t p 0).trans ?_
  show V m c main_v7 (ix2 p (0 : Fin 1)) = _
  rw [KHost.V_v7]
  exact col_at _ _ p

theorem hyp7 (c : Dev nD) (t : Fin cfg0.N) (p : Fin 256) :
    iblk m c 7 t (ix2 p (0 : Fin 1)) = (m ((c : Thread nD τ).loc main_arg7)) (ix3 p (0 : Fin 1) (0 : Fin 1)) := by
  unfold iblk
  refine (read7 c (V m c (Pipeline.arrRef spec0 7)) t p 0).trans ?_
  show V m c main_v8 (ix2 p (0 : Fin 1)) = _
  rw [KHost.V_v8]
  exact col_at _ _ p

/-- What point t writes back is block t of the result array: the body's block is the specification at
    sample t, lane by lane. -/
theorem flushed_eq (c : Dev nD) (t : Fin cfg0.N) :
    (dats m 0 c).flushed 8 t = ((cfg0.win 8).blk t).view.read (Elt Ideal) (G3 m c) := by
  show (cfg0.win 8).cut (grid0.coords t) ((dats m 0 c).after 8 t) = _
  rw [after0_8]
  unfold outsAt0
  rw [KPiece.out_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) (iblk m c 0 t) (iblk m c 1 t) (iblk m c 2 t) (iblk m c 3 t) (iblk m c 4 t) (iblk m c 5 t) (iblk m c 6 t) (iblk m c 7 t)]
  funext y
  obtain ⟨z, p, k, rfl⟩ : ∃ (z : Fin 1) (p : Fin 256) (k : Fin 4096), y = ix3 z p k := ⟨y 0, y 1, y 2, eq_ix3 y⟩
  obtain rfl : z = 0 := Subsingleton.elim _ _
  obtain ⟨h, w, rfl⟩ : ∃ h w : Fin 64, k = lane h w := ⟨hOf k, wOf k, (lane_hw k).symm⟩
  rw [View.read_apply, emb8, G3_ix3, hOf_lane, wOf_lane]
  exact KPayload.body_apply (iblk m c 0 t) (iblk m c 1 t) (iblk m c 2 t) (iblk m c 3 t) (iblk m c 4 t) (iblk m c 5 t) (iblk m c 6 t) (iblk m c 7 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (bOf t) (hyp0 m c t) (hyp1 m c t) (hyp2 m c t) (hyp3 m c t) (hyp4 m c t) (hyp5 m c t) (hyp6 m c t) (hyp7 m c t) p h w

/-- The 32 blocks tile the result array: after the run it is the specification, lanes folded. -/
theorem final8 (c : Dev nD) : (dats m 0 c).arrAt 8 cfg0.N = G3 m c :=
  (dats m 0 c).arrAt_eq_of_cover 8 (G3 m c) (fun t _ => flushed_eq m c t) cover8

end Cert.KernelIdeal.KBlocks

end
-- ==== Proof.KRun.lean ====
/-
  The kernel program's run, read: after the region the result array holds the specification with its
  spatial axes folded; the one host line after the region unfolds them, so the result buffer ends at the
  specification itself, and the eight argument arrays end as they were.
-/
import proofs.«155818_j60060822667451_1_alg».proof.Proof.KBlocks
import Idealize.ShloMosaic.Lib.StableHlo.Run

set_option maxRecDepth 16384

noncomputable section

namespace Cert.KernelIdeal.KRun

open Idealize.ShloMosaic Idealize.ShloMosaic.TcCoe Idealize.ShloMosaic.Tactic
open Idealize.SL Idealize.SL.Sem
open Cert.KernelIdeal Cert.KernelIdeal.Gen

open Idealize.ShloMosaic.ValueIdx Cert.KernelIdeal.KAt Cert.KernelIdeal.KBlocks Idealize.ShloMosaic.StableHlo
variable (m : (ℓ : Loc nD τ sig) → Buf (Elt Ideal) ℓ) (ρ : Dev nD → PrngReg)

/-- The line after the region: the result array [32,256,4096] read as [32,256,64,64] is the specification. -/
theorem tail_v10 (c : Dev nD) :
    Pipeline.afterTail₀ cfgs (dats m) 0 (V0 m) [hostOps1] c main_v10 = Cert.Spec.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold Pipeline.afterTail₀
  show StableHlo.after hostOps1 _ (Proc.devRef .tc main_v10) = _
  after_results
  have hW : Pipeline.withArrays (cfgs 0).spec c (V0 m c) (fun w => (dats m 0 c).arrAt w (cfgs 0).N)
      (Proc.devRef .tc main_v9) = G3 m c :=
    (Pipeline.withArrays_arr spec0 launch0.win.arr_inj c _ _ 8).trans (final8 m c)
  rw [hW]
  funext i
  obtain ⟨b, p, h, w, rfl⟩ : ∃ (b : Fin 32) (p : Fin 256) (h w : Fin 64), i = ix4 b p h w :=
    ⟨i 0, i 1, i 2, i 3, eq_ix4 i⟩
  show shapeCast S32x256x64x64 (G3 m c) shapeCasts_S32x256x4096_S32x256x64x64 (ix4 b p h w) = _
  rw [unfold_at, G3_ix3, hOf_lane, wOf_lane, Cert.Spec.out_ix4]

/-- Every weakly fair execution of the kernel program terminates with the result buffer at the specification of
    the argument arrays, and the arguments unchanged. -/
theorem run : θ_run (defs (F := Ideal)) (onTc (τ := τ) (main (F := Ideal))) ⟨m, fun _ => 0, ρ⟩ fun r => ∀ c : Dev nD,
      r.2.mem ((c.tc : Thread nD τ).loc main_v10) = Cert.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).2 main_v10 (Pipeline.mem_restRefs_of main_v10 (by decide) (by decide))).trans (tail_v10 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ)

end Cert.KernelIdeal.KRun

end
-- ==== Proof.RefRun.lean ====
/-
  The reference program's @main as the list of its host operations, the call of the padding function
  and its two reversals written out at the call site over the call's buffers, and its run read back:
  every weakly fair execution terminates with each buffer at the fold of the operations over the
  launch contents.
-/
import proofs.«155818_j60060822667451_1_alg».proof.Proof.Gen.ReferenceIdeal
import Idealize.ShloMosaic.Lib.StableHlo.Run
import proofs.«155818_j60060822667451_1_alg».proof.Proof.Spec

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 67 operations in order: its own 59, and in the place of the call the padding function's 8
    (two slices, a reversal, a concatenation, two slices, a reversal, a concatenation). -/
abbrev ops : List (HloOp τ sig (Elt F)) :=
  [ nullary main_cst (constant S_ .f32 0x00000000#32),
    binary main_arg0 main_cst main_v0 ((fun x v => Host.reduceAdd x v reducesTo_S32x256x64x64_S32x256_d2_3 h_S_) : (⟨S32x256x64x64, .f32⟩ : BufTy).Contents (Elt F) → (⟨S_, .f32⟩ : BufTy).Contents (Elt F) → (⟨S32x256, .f32⟩ : BufTy).Contents (Elt F)),
    nullary main_cst_0 (constant S_ .f32 0x45800000#32),
    unary main_cst_0 main_v1 (broadcastInDim S32x256 ![] bcast_S_S32x256 : (⟨S_, .f32⟩ : BufTy).Contents (Elt F) → (⟨S32x256, .f32⟩ : BufTy).Contents (Elt F)),
    binary main_v0 main_v1 main_v2 (Host.divf : (⟨S32x256, .f32⟩ : BufTy).Contents (Elt F) → (⟨S32x256, .f32⟩ : BufTy).Contents (Elt F) → (⟨S32x256, .f32⟩ : BufTy).Contents (Elt F)),
    binary main_v2 main_arg1 main_v3 ((fun l r => Host.dotGeneral dot_S32x256_S768x256_S32x768_1_1_0_0_n_n none l r) : (⟨S32x256, .f32⟩ : BufTy).Contents (Elt F) → (⟨S768x256, .f32⟩ : BufTy).Contents (Elt F) → (⟨S32x768, .f32⟩ : BufTy).Contents (Elt F)),
    unary main_arg4 main_v4 (broadcastInDim S1x768 ![1] bcast_S768_S1x768_1 : (⟨S768, .f32⟩ : BufTy).Contents (Elt F) → (⟨S1x768, .f32⟩ : BufTy).Contents (Elt F)),
    unary main_v4 main_v5 (broadcastInDim S32x768 ![0, 1] bcast_S1x768_S32x768_0_1 : (⟨S1x768, .f32⟩ : BufTy).Contents (Elt F) → (⟨S32x768, .f32⟩ : BufTy).Contents (Elt F)),
    binary main_v3 main_v5 main_v6 (subf : (⟨S32x768, .f32⟩ : BufTy).Contents (Elt F) → (⟨S32x768, .f32⟩ : BufTy).Contents (Elt F) → (⟨S32x768, .f32⟩ : BufTy).Contents (Elt F)),
    nullary main_cst_1 (constant S_ .f32 0x3727C5AC#32),
    unary main_cst_1 main_v7 (broadcastInDim S768 ![] bcast_S_S768 : (⟨S_, .f32⟩ : BufTy).Contents (Elt F) → (⟨S768, .f32⟩ : BufTy).Contents (Elt F)),
    binary main_arg5 main_v7 main_v8 (addf : (⟨S768, .f32⟩ : BufTy).Contents (Elt F) → (⟨S768, .f32⟩ : BufTy).Contents (Elt F) → (⟨S768, .f32⟩ : BufTy).Contents (Elt F)),
    unary main_v8 main_v9 (Host.rsqrt : (⟨S768, .f32⟩ : BufTy).Contents (Elt F) → (⟨S768, .f32⟩ : BufTy).Contents (Elt F)),
    unary main_v9 main_v10 (broadcastInDim S1x768 ![1] bcast_S768_S1x768_1 : (⟨S768, .f32⟩ : BufTy).Contents (Elt F) → (⟨S1x768, .f32⟩ : BufTy).Contents (Elt F)),
    unary main_v10 main_v11 (broadcastInDim S32x768 ![0, 1] bcast_S1x768_S32x768_0_1 : (⟨S1x768, .f32⟩ : BufTy).Contents (Elt F) → (⟨S32x768, .f32⟩ : BufTy).Contents (Elt F)),
    binary main_v6 main_v11 main_v12 (mulf : (⟨S32x768, .f32⟩ : BufTy).Contents (Elt F) → (⟨S32x768, .f32⟩ : BufTy).Contents (Elt F) → (⟨S32x768, .f32⟩ : BufTy).Contents (Elt F)),
    unary main_arg2 main_v13 (broadcastInDim S1x768 ![1] bcast_S768_S1x768_1 : (⟨S768, .f32⟩ : BufTy).Contents (Elt F) → (⟨S1x768, .f32⟩ : BufTy).Contents (Elt F)),
    unary main_v13 main_v14 (broadcastInDim S32x768 ![0, 1] bcast_S1x768_S32x768_0_1 : (⟨S1x768, .f32⟩ : BufTy).Contents (Elt F) → (⟨S32x768, .f32⟩ : BufTy).Contents (Elt F)),
    binary main_v12 main_v14 main_v15 (mulf : (⟨S32x768, .f32⟩ : BufTy).Contents (Elt F) → (⟨S32x768, .f32⟩ : BufTy).Contents (Elt F) → (⟨S32x768, .f32⟩ : BufTy).Contents (Elt F)),
    unary main_arg3 main_v16 (broadcastInDim S1x768 ![1] bcast_S768_S1x768_1 : (⟨S768, .f32⟩ : BufTy).Contents (Elt F) → (⟨S1x768, .f32⟩ : BufTy).Contents (Elt F)),
    unary main_v16 main_v17 (broadcastInDim S32x768 ![0, 1] bcast_S1x768_S32x768_0_1 : (⟨S1x768, .f32⟩ : BufTy).Contents (Elt F) → (⟨S32x768, .f32⟩ : BufTy).Contents (Elt F)),
    binary main_v15 main_v17 main_v18 (addf : (⟨S32x768, .f32⟩ : BufTy).Contents (Elt F) → (⟨S32x768, .f32⟩ : BufTy).Contents (Elt F) → (⟨S32x768, .f32⟩ : BufTy).Contents (Elt F)),
    unary main_v18 main_v19 (Host.negf : (⟨S32x768, .f32⟩ : BufTy).Contents (Elt F) → (⟨S32x768, .f32⟩ : BufTy).Contents (Elt F)),
    unary main_v19 main_v20 (Host.exp : (⟨S32x768, .f32⟩ : BufTy).Contents (Elt F) → (⟨S32x768, .f32⟩ : BufTy).Contents (Elt F)),
    nullary main_cst_2 (constant S_ .f32 0x3F800000#32),
    unary main_cst_2 main_v21 (broadcastInDim S32x768 ![] bcast_S_S32x768 : (⟨S_, .f32⟩ : BufTy).Contents (Elt F) → (⟨S32x768, .f32⟩ : BufTy).Contents (Elt F)),
    binary main_v21 main_v20 main_v22 (addf : (⟨S32x768, .f32⟩ : BufTy).Contents (Elt F) → (⟨S32x768, .f32⟩ : BufTy).Contents (Elt F) → (⟨S32x768, .f32⟩ : BufTy).Contents (Elt F)),
    nullary main_cst_3 (constant S_ .f32 0x3F800000#32),
    unary main_cst_3 main_v23 (broadcastInDim S32x768 ![] bcast_S_S32x768 : (⟨S_, .f32⟩ : BufTy).Contents (Elt F) → (⟨S32x768, .f32⟩ : BufTy).Contents (Elt F)),
    binary main_v23 main_v22 main_v24 (Host.divf : (⟨S32x768, .f32⟩ : BufTy).Contents (Elt F) → (⟨S32x768, .f32⟩ : BufTy).Contents (Elt F) → (⟨S32x768, .f32⟩ : BufTy).Contents (Elt F)),
    reshape main_v24 main_v25 rfl shapeCasts_S32x768_S32x3x256,
    nullary main_c (constantI S_ 32 0#32),
    TRef.unary (.of main_arg0 : TRef sig ⟨S32x256x64x64, .f32⟩) main_call0.v0 (extractStridedSlice S32x1x64x64 ![0, 0, 0, 0] · slices_S32x256x64x64_S32x1x64x64_0_0_0_0),
    TRef.unary (.of main_arg0 : TRef sig ⟨S32x256x64x64, .f32⟩) main_call0.v1 (extractStridedSlice S32x1x64x64 ![0, 1, 0, 0] · slices_S32x256x64x64_S32x1x64x64_0_1_0_0),
    TRef.unary main_call0.v1 main_call0.call0.v0 (Host.reverse [1]),
    TRef.binary main_call0.call0.v0 (.of main_arg0 : TRef sig ⟨S32x256x64x64, .f32⟩) main_call0.v3 (fun (a : FVec F S32x1x64x64 .f32) (b : FVec F S32x256x64x64 .f32) => concatenate S32x257x64x64 1 [⟨S32x1x64x64, a⟩, ⟨S32x256x64x64, b⟩] concatenates_S32x1x64x64_S32x256x64x64_S32x257x64x64_d1),
    TRef.unary main_call0.v3 main_call0.v4 (extractStridedSlice S32x1x64x64 ![0, 256, 0, 0] · slices_S32x257x64x64_S32x1x64x64_0_256_0_0),
    TRef.unary main_call0.v3 main_call0.v5 (extractStridedSlice S32x1x64x64 ![0, 255, 0, 0] · slices_S32x257x64x64_S32x1x64x64_0_255_0_0),
    TRef.unary main_call0.v5 main_call0.call1.v0 (Host.reverse [1]),
    TRef.binary main_call0.v3 main_call0.call1.v0 main_call0.v7 (fun (a : FVec F S32x257x64x64 .f32) (b : FVec F S32x1x64x64 .f32) => concatenate S32x258x64x64 1 [⟨S32x257x64x64, a⟩, ⟨S32x1x64x64, b⟩] concatenates_S32x257x64x64_S32x1x64x64_S32x258x64x64_d1),
    unary main_v25 main_v27 ((extractStridedSlice S32x1x256 ![0, 0, 0] · slices_S32x3x256_S32x1x256_0_0_0) : (⟨S32x3x256, .f32⟩ : BufTy).Contents (Elt F) → (⟨S32x1x256, .f32⟩ : BufTy).Contents (Elt F)),
    reshape main_v27 main_v28 rfl shapeCasts_S32x1x256_S32x256,
    unary main_v28 main_v29 (broadcastInDim S32x256x1x1 ![0, 1] bcast_S32x256_S32x256x1x1_0_1 : (⟨S32x256, .f32⟩ : BufTy).Contents (Elt F) → (⟨S32x256x1x1, .f32⟩ : BufTy).Contents (Elt F)),
    unary main_v26 main_v30 ((extractStridedSlice S32x256x64x64 ![0, 0, 0, 0] · slices_S32x258x64x64_S32x256x64x64_0_0_0_0) : (⟨S32x258x64x64, .f32⟩ : BufTy).Contents (Elt F) → (⟨S32x256x64x64, .f32⟩ : BufTy).Contents (Elt F)),
    unary main_v29 main_v31 (broadcastInDim S32x256x64x64 ![0, 1, 2, 3] bcast_S32x256x1x1_S32x256x64x64_0_1_2_3 : (⟨S32x256x1x1, .f32⟩ : BufTy).Contents (Elt F) → (⟨S32x256x64x64, .f32⟩ : BufTy).Contents (Elt F)),
    binary main_v31 main_v30 main_v32 (mulf : (⟨S32x256x64x64, .f32⟩ : BufTy).Contents (Elt F) → (⟨S32x256x64x64, .f32⟩ : BufTy).Contents (Elt F) → (⟨S32x256x64x64, .f32⟩ : BufTy).Contents (Elt F)),
    unary main_v25 main_v33 ((extractStridedSlice S32x1x256 ![0, 1, 0] · slices_S32x3x256_S32x1x256_0_1_0) : (⟨S32x3x256, .f32⟩ : BufTy).Contents (Elt F) → (⟨S32x1x256, .f32⟩ : BufTy).Contents (Elt F)),
    reshape main_v33 main_v34 rfl shapeCasts_S32x1x256_S32x256,
    unary main_v34 main_v35 (broadcastInDim S32x256x1x1 ![0, 1] bcast_S32x256_S32x256x1x1_0_1 : (⟨S32x256, .f32⟩ : BufTy).Contents (Elt F) → (⟨S32x256x1x1, .f32⟩ : BufTy).Contents (Elt F)),
    unary main_v26 main_v36 ((extractStridedSlice S32x256x64x64 ![0, 1, 0, 0] · slices_S32x258x64x64_S32x256x64x64_0_1_0_0) : (⟨S32x258x64x64, .f32⟩ : BufTy).Contents (Elt F) → (⟨S32x256x64x64, .f32⟩ : BufTy).Contents (Elt F)),
    unary main_v35 main_v37 (broadcastInDim S32x256x64x64 ![0, 1, 2, 3] bcast_S32x256x1x1_S32x256x64x64_0_1_2_3 : (⟨S32x256x1x1, .f32⟩ : BufTy).Contents (Elt F) → (⟨S32x256x64x64, .f32⟩ : BufTy).Contents (Elt F)),
    binary main_v37 main_v36 main_v38 (mulf : (⟨S32x256x64x64, .f32⟩ : BufTy).Contents (Elt F) → (⟨S32x256x64x64, .f32⟩ : BufTy).Contents (Elt F) → (⟨S32x256x64x64, .f32⟩ : BufTy).Contents (Elt F)),
    binary main_v32 main_v38 main_v39 (addf : (⟨S32x256x64x64, .f32⟩ : BufTy).Contents (Elt F) → (⟨S32x256x64x64, .f32⟩ : BufTy).Contents (Elt F) → (⟨S32x256x64x64, .f32⟩ : BufTy).Contents (Elt F)),
    unary main_v25 main_v40 ((extractStridedSlice S32x1x256 ![0, 2, 0] · slices_S32x3x256_S32x1x256_0_2_0) : (⟨S32x3x256, .f32⟩ : BufTy).Contents (Elt F) → (⟨S32x1x256, .f32⟩ : BufTy).Contents (Elt F)),
    reshape main_v40 main_v41 rfl shapeCasts_S32x1x256_S32x256,
    unary main_v41 main_v42 (broadcastInDim S32x256x1x1 ![0, 1] bcast_S32x256_S32x256x1x1_0_1 : (⟨S32x256, .f32⟩ : BufTy).Contents (Elt F) → (⟨S32x256x1x1, .f32⟩ : BufTy).Contents (Elt F)),
    unary main_v26 main_v43 ((extractStridedSlice S32x256x64x64 ![0, 2, 0, 0] · slices_S32x258x64x64_S32x256x64x64_0_2_0_0) : (⟨S32x258x64x64, .f32⟩ : BufTy).Contents (Elt F) → (⟨S32x256x64x64, .f32⟩ : BufTy).Contents (Elt F)),
    unary main_v42 main_v44 (broadcastInDim S32x256x64x64 ![0, 1, 2, 3] bcast_S32x256x1x1_S32x256x64x64_0_1_2_3 : (⟨S32x256x1x1, .f32⟩ : BufTy).Contents (Elt F) → (⟨S32x256x64x64, .f32⟩ : BufTy).Contents (Elt F)),
    binary main_v44 main_v43 main_v45 (mulf : (⟨S32x256x64x64, .f32⟩ : BufTy).Contents (Elt F) → (⟨S32x256x64x64, .f32⟩ : BufTy).Contents (Elt F) → (⟨S32x256x64x64, .f32⟩ : BufTy).Contents (Elt F)),
    binary main_v39 main_v45 main_v46 (addf : (⟨S32x256x64x64, .f32⟩ : BufTy).Contents (Elt F) → (⟨S32x256x64x64, .f32⟩ : BufTy).Contents (Elt F) → (⟨S32x256x64x64, .f32⟩ : BufTy).Contents (Elt F)),
    unary main_arg6 main_v47 (broadcastInDim S1x256x1x1 ![1, 2, 3] bcast_S256x1x1_S1x256x1x1_1_2_3 : (⟨S256x1x1, .f32⟩ : BufTy).Contents (Elt F) → (⟨S1x256x1x1, .f32⟩ : BufTy).Contents (Elt F)),
    unary main_v47 main_v48 (broadcastInDim S32x256x64x64 ![0, 1, 2, 3] bcast_S1x256x1x1_S32x256x64x64_0_1_2_3 : (⟨S1x256x1x1, .f32⟩ : BufTy).Contents (Elt F) → (⟨S32x256x64x64, .f32⟩ : BufTy).Contents (Elt F)),
    binary main_v46 main_v48 main_v49 (mulf : (⟨S32x256x64x64, .f32⟩ : BufTy).Contents (Elt F) → (⟨S32x256x64x64, .f32⟩ : BufTy).Contents (Elt F) → (⟨S32x256x64x64, .f32⟩ : BufTy).Contents (Elt F)),
    unary main_arg7 main_v50 (broadcastInDim S1x256x1x1 ![1, 2, 3] bcast_S256x1x1_S1x256x1x1_1_2_3 : (⟨S256x1x1, .f32⟩ : BufTy).Contents (Elt F) → (⟨S1x256x1x1, .f32⟩ : BufTy).Contents (Elt F)),
    unary main_v50 main_v51 (broadcastInDim S32x256x64x64 ![0, 1, 2, 3] bcast_S1x256x1x1_S32x256x64x64_0_1_2_3 : (⟨S1x256x1x1, .f32⟩ : BufTy).Contents (Elt F) → (⟨S32x256x64x64, .f32⟩ : BufTy).Contents (Elt F)),
    binary main_arg0 main_v51 main_v52 (mulf : (⟨S32x256x64x64, .f32⟩ : BufTy).Contents (Elt F) → (⟨S32x256x64x64, .f32⟩ : BufTy).Contents (Elt F) → (⟨S32x256x64x64, .f32⟩ : BufTy).Contents (Elt F)),
    binary main_v49 main_v52 main_v53 (addf : (⟨S32x256x64x64, .f32⟩ : BufTy).Contents (Elt F) → (⟨S32x256x64x64, .f32⟩ : BufTy).Contents (Elt F) → (⟨S32x256x64x64, .f32⟩ : BufTy).Contents (Elt F)) ]

set_option maxRecDepth 4096 in
/-- @main is that straight line: the functions' definitions unfolded at their calls, sequencing reassociated. -/
theorem main_eq (c : Dev nD) : main (F := F) c = seq ops := by
  simp only [main, main_part0, main_part1, fn_pad.body, fn_flip.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., nullary_bufs_sub .., unary_bufs_sub .., unary_bufs_sub .., unary_bufs_sub .., binary_bufs_sub .., unary_bufs_sub .., unary_bufs_sub .., unary_bufs_sub .., binary_bufs_sub .., unary_bufs_sub .., reshape_bufs_sub .., unary_bufs_sub .., unary_bufs_sub .., unary_bufs_sub .., binary_bufs_sub .., unary_bufs_sub .., reshape_bufs_sub .., unary_bufs_sub .., unary_bufs_sub .., unary_bufs_sub .., binary_bufs_sub .., binary_bufs_sub .., unary_bufs_sub .., reshape_bufs_sub .., unary_bufs_sub .., unary_bufs_sub .., unary_bufs_sub .., binary_bufs_sub .., binary_bufs_sub .., unary_bufs_sub .., unary_bufs_sub .., binary_bufs_sub .., unary_bufs_sub .., unary_bufs_sub .., binary_bufs_sub .., binary_bufs_sub ..⟩

/-- From any memory with zero counters every weakly fair execution of @main terminates, each buffer at the
    fold of the operations over the launch contents. -/
theorem run_all (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference program's result as one pure term of the eight argument arrays: the operations'
  functions composed in the program's order, the reflect-padded input written as the
  specification's padded array.
-/
import proofs.«155818_j60060822667451_1_alg».proof.Proof.Gen.ReferenceIdeal
import proofs.«155818_j60060822667451_1_alg».proof.Proof.Spec

noncomputable section

namespace Cert.ReferenceIdeal.RefRun

open Cert.ReferenceIdeal Cert.ReferenceIdeal.Gen Idealize.ShloMosaic

/-- The channel means: the sum over the spatial field, divided by its size. -/
def gapT (x : FVec Ideal S32x256x64x64 .f32) : FVec Ideal S32x256 .f32 :=
  Host.divf (F := Ideal)
    (Host.reduceAdd (F := Ideal) x (constant (F := Ideal) S_ .f32 0x00000000#32) reducesTo_S32x256x64x64_S32x256_d2_3 h_S_)
    (broadcastInDim S32x256 ![] bcast_S_S32x256 (constant (F := Ideal) S_ .f32 0x45800000#32))

/-- A vector of 768 entries repeated on every one of the 32 rows. -/
def rowT (v : FVec Ideal S768 .f32) : FVec Ideal S32x768 .f32 :=
  broadcastInDim S32x768 ![0, 1] bcast_S1x768_S32x768_0_1 (broadcastInDim S1x768 ![1] bcast_S768_S1x768_1 v)

/-- The argument of the logistic: the convolution of the means, normalised, scaled and shifted. -/
def preT (x : FVec Ideal S32x256x64x64 .f32) (cw : FVec Ideal S768x256 .f32) (bw bb mean var : FVec Ideal S768 .f32) :
    FVec Ideal S32x768 .f32 :=
  addf (mulf (mulf (subf (Host.dotGeneral (F := Ideal) dot_S32x256_S768x256_S32x768_1_1_0_0_n_n none (gapT x) cw) (rowT mean))
      (rowT (Host.rsqrt (F := Ideal) (addf var (broadcastInDim S768 ![] bcast_S_S768 (constant (F := Ideal) S_ .f32 0x3727C5AC#32))))))
      (rowT bw)) (rowT bb)

/-- The constant one on the [32, 768] array. -/
def oneT : FVec Ideal S32x768 .f32 :=
  broadcastInDim S32x768 ![] bcast_S_S32x768 (constant (F := Ideal) S_ .f32 0x3F800000#32)

/-- The filter, as [32, 3, 256]: one over one plus the exponential of the negated argument. -/
def filtT (x : FVec Ideal S32x256x64x64 .f32) (cw : FVec Ideal S768x256 .f32) (bw bb mean var : FVec Ideal S768 .f32) :
    FVec Ideal S32x3x256 .f32 :=
  shapeCast S32x3x256
    (Host.divf (F := Ideal) oneT (addf oneT (Host.exp (F := Ideal) (Host.negf (F := Ideal) (preT x cw bw bb mean var)))))
    shapeCasts_S32x768_S32x3x256

/-- One tap of the filter spread over the spatial field. -/
def tapT (off : Fin 3 → Nat) (h : S32x3x256.Slices off S32x1x256) (f : FVec Ideal S32x3x256 .f32) :
    FVec Ideal S32x256x64x64 .f32 :=
  broadcastInDim S32x256x64x64 ![0, 1, 2, 3] bcast_S32x256x1x1_S32x256x64x64_0_1_2_3
    (broadcastInDim S32x256x1x1 ![0, 1] bcast_S32x256_S32x256x1x1_0_1
      (shapeCast S32x256 (extractStridedSlice S32x1x256 off f h) shapeCasts_S32x1x256_S32x256))

/-- A per-channel scale spread over samples and the spatial field. -/
def chanT (g : FVec Ideal S256x1x1 .f32) : FVec Ideal S32x256x64x64 .f32 :=
  broadcastInDim S32x256x64x64 ![0, 1, 2, 3] bcast_S1x256x1x1_S32x256x64x64_0_1_2_3
    (broadcastInDim S1x256x1x1 ![1, 2, 3] bcast_S256x1x1_S1x256x1x1_1_2_3 g)

/-- The reference's result: the three taps against the three windows of the padded input, summed, scaled by
    gamma, plus the input scaled by beta. -/
def refTerm (x : FVec Ideal S32x256x64x64 .f32) (cw : FVec Ideal S768x256 .f32) (bw bb mean var : FVec Ideal S768 .f32)
    (gamma beta : FVec Ideal S256x1x1 .f32) : FVec Ideal S32x256x64x64 .f32 :=
  addf
    (mulf
      (addf
        (addf
          (mulf (tapT ![0, 0, 0] slices_S32x3x256_S32x1x256_0_0_0 (filtT x cw bw bb mean var))
            (extractStridedSlice S32x256x64x64 ![0, 0, 0, 0] (Cert.Spec.padT x) slices_S32x258x64x64_S32x256x64x64_0_0_0_0))
          (mulf (tapT ![0, 1, 0] slices_S32x3x256_S32x1x256_0_1_0 (filtT x cw bw bb mean var))
            (extractStridedSlice S32x256x64x64 ![0, 1, 0, 0] (Cert.Spec.padT x) slices_S32x258x64x64_S32x256x64x64_0_1_0_0)))
        (mulf (tapT ![0, 2, 0] slices_S32x3x256_S32x1x256_0_2_0 (filtT x cw bw bb mean var))
          (extractStridedSlice S32x256x64x64 ![0, 2, 0, 0] (Cert.Spec.padT x) slices_S32x258x64x64_S32x256x64x64_0_2_0_0)))
      (chanT gamma))
    (mulf x (chanT beta))

end Cert.ReferenceIdeal.RefRun

end
-- ==== Proof.RefRead.lean ====
/-
  The fold of the reference's operations read at the result buffer, where it is the composed term of the
  argument buffers' contents, and at the argument buffers, which no operation writes.
-/
import proofs.«155818_j60060822667451_1_alg».proof.Proof.RefRun
import proofs.«155818_j60060822667451_1_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

theorem arg0_eq (V : Valuation τ sig (Elt Ideal)) :
    after (ops (F := Ideal)) V (main_arg0 : DevRef τ sig) = V (main_arg0 : DevRef τ sig) := by
  after_results_simp

theorem arg1_eq (V : Valuation τ sig (Elt Ideal)) :
    after (ops (F := Ideal)) V (main_arg1 : DevRef τ sig) = V (main_arg1 : DevRef τ sig) := by
  after_results_simp

theorem arg2_eq (V : Valuation τ sig (Elt Ideal)) :
    after (ops (F := Ideal)) V (main_arg2 : DevRef τ sig) = V (main_arg2 : DevRef τ sig) := by
  after_results_simp

theorem arg3_eq (V : Valuation τ sig (Elt Ideal)) :
    after (ops (F := Ideal)) V (main_arg3 : DevRef τ sig) = V (main_arg3 : DevRef τ sig) := by
  after_results_simp

theorem arg4_eq (V : Valuation τ sig (Elt Ideal)) :
    after (ops (F := Ideal)) V (main_arg4 : DevRef τ sig) = V (main_arg4 : DevRef τ sig) := by
  after_results_simp

theorem arg5_eq (V : Valuation τ sig (Elt Ideal)) :
    after (ops (F := Ideal)) V (main_arg5 : DevRef τ sig) = V (main_arg5 : DevRef τ sig) := by
  after_results_simp

theorem arg6_eq (V : Valuation τ sig (Elt Ideal)) :
    after (ops (F := Ideal)) V (main_arg6 : DevRef τ sig) = V (main_arg6 : DevRef τ sig) := by
  after_results_simp

theorem arg7_eq (V : Valuation τ sig (Elt Ideal)) :
    after (ops (F := Ideal)) V (main_arg7 : DevRef τ sig) = V (main_arg7 : DevRef τ sig) := by
  after_results_simp

set_option maxRecDepth 8192 in
set_option maxHeartbeats 1000000 in
/-- At the result buffer the fold is the composed term: each operation's result rewritten at its own buffer, and
    the padding function's buffers, whose typed references carry identity casts, by computation. -/
theorem v53_eq (V : Valuation τ sig (Elt Ideal)) :
    after (ops (F := Ideal)) V (main_v53 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

end Cert.ReferenceIdeal.RefRun

end
-- ==== Proof.RefPoint.lean ====
/-
  The reference's composed term is the specification, index by index: each layout operation read at
  an index, the two-axis sum re-indexed over the spatial coordinates, the contraction over its one
  coordinate, and one over one plus the exponential of the negation recognised as the logistic.
-/
import proofs.«155818_j60060822667451_1_alg».proof.Proof.RefTerm
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.RefRun Idealize.ShloMosaic Idealize.ShloMosaic.ValueIdx
open scoped BigOperators

/-- A vector repeated on every row, read at (b, o): the vector at o. -/
theorem rowT_apply (v : FVec Ideal S768 .f32) (b : Fin 32) (o : Fin 768) : rowT v (ix2 b o) = v (ix1 o) := by
  unfold rowT
  refine (broadcastInDim_apply _ _ _ (ix2 b o) (ix2 (0 : Fin 1) o) (fun a => ?_)).trans ?_
  · match a with
    | ⟨0, _⟩ => rfl
    | ⟨1, _⟩ => rfl
  · refine broadcastInDim_apply _ _ _ (ix2 (0 : Fin 1) o) (ix1 o) (fun a => ?_)
    match a with
    | ⟨0, _⟩ => rfl

/-- A per-channel scale spread over samples and the spatial field, read at (b, c, h, w): the scale at c. -/
theorem chanT_apply (g : FVec Ideal S256x1x1 .f32) (b : Fin 32) (c : Fin 256) (h w : Fin 64) :
    chanT g (ix4 b c h w) = g (ix3 c 0 0) := by
  unfold chanT
  refine (broadcastInDim_apply _ _ _ (ix4 b c h w) (ix4 (0 : Fin 1) c (0 : Fin 1) (0 : Fin 1)) (fun a => ?_)).trans ?_
  · match a with
    | ⟨0, _⟩ => rfl
    | ⟨1, _⟩ => rfl
    | ⟨2, _⟩ => rfl
    | ⟨3, _⟩ => rfl
  · refine broadcastInDim_apply _ _ _ (ix4 (0 : Fin 1) c (0 : Fin 1) (0 : Fin 1)) (ix3 c 0 0) (fun a => ?_)
    match a with
    | ⟨0, _⟩ => rfl
    | ⟨1, _⟩ => rfl
    | ⟨2, _⟩ => rfl

/-- Tap t of the filter spread over the spatial field, read at (b, c, h, w): the filter at (b, t, c). -/
theorem tapT_apply (t : Fin 3) (off : Fin 3 → Nat) (h0 : off 0 = 0) (h1 : off 1 = t.val) (h2 : off 2 = 0)
    (hs : S32x3x256.Slices off S32x1x256) (f : FVec Ideal S32x3x256 .f32)
    (b : Fin 32) (c : Fin 256) (h w : Fin 64) : tapT off hs f (ix4 b c h w) = f (ix3 b t c) := by
  unfold tapT
  refine (broadcastInDim_apply _ _ _ (ix4 b c h w) (ix4 b c (0 : Fin 1) (0 : Fin 1)) (fun a => ?_)).trans ?_
  · match a with
    | ⟨0, _⟩ => rfl
    | ⟨1, _⟩ => rfl
    | ⟨2, _⟩ => rfl
    | ⟨3, _⟩ => rfl
  refine (broadcastInDim_apply _ _ _ (ix4 b c (0 : Fin 1) (0 : Fin 1)) (ix2 b c) (fun a => ?_)).trans ?_
  · match a with
    | ⟨0, _⟩ => rfl
    | ⟨1, _⟩ => rfl
  refine (shapeCast_apply _ _ (ix2 b c) (ix3 b (0 : Fin 1) c) ?_).trans ?_
  · have e1 : (S32x1x256.rowMajor (ix3 b (0 : Fin 1) c)).val = (b.val * 1 + 0) * 256 + c.val := Shape.rowMajor_val_three _
    have e2 : (S32x256.rowMajor (ix2 b c)).val = b.val * 256 + c.val := Shape.rowMajor_val_two _
    rw [e1, e2]; omega
  refine extractStridedSlice_apply _ _ _ (ix3 b (0 : Fin 1) c) (ix3 b t c) (fun a => ?_)
  match a with
  | ⟨0, _⟩ => show b.val = off 0 + b.val; omega
  | ⟨1, _⟩ => show t.val = off 1 + 0; omega
  | ⟨2, _⟩ => show c.val = off 2 + c.val; omega

/-- A window of the padded array starting at channel row t, read at (b, c, h, w): the padded array at row c + t. -/
theorem win_apply (t : Nat) (ht : t ≤ 2) (off : Fin 4 → Nat) (h0 : off 0 = 0) (h1 : off 1 = t) (h2 : off 2 = 0) (h3 : off 3 = 0)
    (hs : S32x258x64x64.Slices off S32x256x64x64) (p : FVec Ideal S32x258x64x64 .f32)
    (b : Fin 32) (c : Fin 256) (h w : Fin 64) :
    extractStridedSlice S32x256x64x64 off p hs (ix4 b c h w) = p (ix4 b (⟨c.val + t, by omega⟩ : Fin 258) h w) := by
  refine extractStridedSlice_apply _ _ _ (ix4 b c h w) (ix4 b (⟨c.val + t, by omega⟩ : Fin 258) h w) (fun a => ?_)
  match a with
  | ⟨0, _⟩ => show b.val = off 0 + b.val; omega
  | ⟨1, _⟩ => show c.val + t = off 1 + c.val; omega
  | ⟨2, _⟩ => show h.val = off 2 + h.val; omega
  | ⟨3, _⟩ => show w.val = off 3 + w.val; omega

/-- The f32 pattern of one is the extended real one. -/
theorem one_eq : Ideal.ofBits .f32 0x3F800000#32 = 1 := IdealRules.sign_bit.ideal_onePat .f32

/-- The indices of the input that drop to (b, q) are the 64 × 64 spatial positions of sample b, channel q. -/
theorem sum_drop (x : FVec Ideal S32x256x64x64 .f32) (hr : S32x256x64x64.ReducesTo [2, 3] S32x256) (b : Fin 32) (q : Fin 256)
    [DecidablePred fun i : S32x256x64x64.Idx => hr.drop i = ix2 b q] :
    ∑ i ∈ Finset.univ.filter (fun i : S32x256x64x64.Idx => hr.drop i = ix2 b q), x i
      = ∑ h : Fin 64, ∑ w : Fin 64, x (ix4 b q h w) := by
  rw [← Finset.sum_product' (Finset.univ : Finset (Fin 64)) (Finset.univ : Finset (Fin 64)) (fun h w => x (ix4 b q h w))]
  refine Finset.sum_nbij' (fun i => ((i 2 : Fin 64), (i 3 : Fin 64))) (fun p => ix4 b q p.1 p.2) ?_ ?_ ?_ ?_ ?_
  · intro i _; exact Finset.mem_product.mpr ⟨Finset.mem_univ _, Finset.mem_univ _⟩
  · intro p _
    refine Finset.mem_filter.mpr ⟨Finset.mem_univ _, ?_⟩
    funext a
    match a with
    | ⟨0, _⟩ => rfl
    | ⟨1, _⟩ => rfl
  · intro i hi
    have hi' := (Finset.mem_filter.mp hi).2
    have e0 : (i 0 : Fin 32) = b := congrFun hi' 0
    have e1 : (i 1 : Fin 256) = q := congrFun hi' 1
    funext a
    match a with
    | ⟨0, _⟩ => exact e0.symm
    | ⟨1, _⟩ => exact e1.symm
    | ⟨2, _⟩ => rfl
    | ⟨3, _⟩ => rfl
  · intro p _; rfl
  · intro i hi
    have hi' := (Finset.mem_filter.mp hi).2
    have e0 : (i 0 : Fin 32) = b := congrFun hi' 0
    have e1 : (i 1 : Fin 256) = q := congrFun hi' 1
    refine congrArg x ?_
    funext a
    match a with
    | ⟨0, _⟩ => exact e0
    | ⟨1, _⟩ => exact e1
    | ⟨2, _⟩ => rfl
    | ⟨3, _⟩ => rfl

/-- The channel means, read at (b, q). -/
theorem gapT_apply (x : FVec Ideal S32x256x64x64 .f32) (b : Fin 32) (q : Fin 256) : gapT x (ix2 b q) = Cert.Spec.gap x b q := by
  unfold gapT Cert.Spec.gap Cert.Spec.n4096
  show Ideal.div (Ideal.hostReduceAdd reducesTo_S32x256x64x64_S32x256_d2_3 x (Ideal.ofBits .f32 0x00000000#32) (ix2 b q)) _ = _
  unfold Ideal.hostReduceAdd
  rw [Ideal.ofBits_zero_f32, zero_add, sum_drop]
  rfl

/-- The contraction's dimension numbers. -/
abbrev DD : DotDims S32x256 S768x256 S32x768 := dot_S32x256_S768x256_S32x768_1_1_0_0_n_n

theorem DD_rank : DD.contr.rank = 1 := rfl
theorem DD_size : DD.contr.size ⟨0, by rw [DD_rank]; exact Nat.one_pos⟩ = 256 := rfl

/-- The contraction of the means with the convolution weight, read at (b, o): the sum over the 256 channels. -/
theorem dot_apply (g : FVec Ideal S32x256 .f32) (cw : FVec Ideal S768x256 .f32) (b : Fin 32) (o : Fin 768) :
    Host.dotGeneral (F := Ideal) DD none g cw (ix2 b o) = ∑ q : Fin 256, g (ix2 b q) * cw (ix2 o q) := by
  show FloatOps.dotGeneral DD none .single g cw (ix2 b o) = _
  rw [Ideal.dotGeneral_apply, ← Equiv.sum_comp (contrEquiv1 DD 256 DD_rank DD_size).symm]
  refine Finset.sum_congr rfl fun q _ => ?_
  have hl : DD.lhsIdx (ix2 b o) ((contrEquiv1 DD 256 DD_rank DD_size).symm q) = ix2 b q := by
    funext a
    apply Fin.ext
    match a with
    | ⟨0, _⟩ => rfl
    | ⟨1, _⟩ => exact (DD.lhsIdx_val_of_single (cl := (1 : Fin 2)) rfl _ _).trans (contrEquiv1_symm_val DD 256 DD_rank DD_size q)
  have hrr : DD.rhsIdx (ix2 b o) ((contrEquiv1 DD 256 DD_rank DD_size).symm q) = ix2 o q := by
    funext a
    apply Fin.ext
    match a with
    | ⟨0, _⟩ => rfl
    | ⟨1, _⟩ => exact (DD.rhsIdx_val_of_single (cr := (1 : Fin 2)) rfl _ _).trans (contrEquiv1_symm_val DD 256 DD_rank DD_size q)
  rw [hl, hrr]

/-- The argument of the logistic, read at (b, o). -/
theorem preT_apply (x : FVec Ideal S32x256x64x64 .f32) (cw : FVec Ideal S768x256 .f32) (bw bb mean var : FVec Ideal S768 .f32)
    (b : Fin 32) (o : Fin 768) :
    preT x cw bw bb mean var (ix2 b o)
      = (((∑ q : Fin 256, Cert.Spec.gap x b q * cw (ix2 o q)) - mean (ix1 o)) * Ideal.rsqrt (var (ix1 o) + Cert.Spec.eps))
          * bw (ix1 o) + bb (ix1 o) := by
  unfold preT
  rw [addf_apply, mulf_apply, mulf_apply, subf_apply, rowT_apply, rowT_apply, rowT_apply, rowT_apply, dot_apply]
  refine congrArg (fun s => ((s - mean (ix1 o)) * Ideal.rsqrt (var (ix1 o) + Cert.Spec.eps)) * bw (ix1 o) + bb (ix1 o)) ?_
  exact Finset.sum_congr rfl fun q _ => by rw [gapT_apply]

/-- The filter, read at (b, t, c): the specification's filter entry 256 t + c. -/
theorem filtT_apply (x : FVec Ideal S32x256x64x64 .f32) (cw : FVec Ideal S768x256 .f32) (bw bb mean var : FVec Ideal S768 .f32)
    (b : Fin 32) (t : Fin 3) (c : Fin 256) (o : Fin 768) (ho : o.val = 256 * t.val + c.val) :
    filtT x cw bw bb mean var (ix3 b t c) = Cert.Spec.filt (Cert.Spec.gap x b) cw bw bb mean var o := by
  unfold filtT
  refine (shapeCast_apply _ _ (ix3 b t c) (ix2 b o) ?_).trans ?_
  · have e1 : (S32x3x256.rowMajor (ix3 b t c)).val = (b.val * 3 + t.val) * 256 + c.val := Shape.rowMajor_val_three _
    have e2 : (S32x768.rowMajor (ix2 b o)).val = b.val * 768 + o.val := Shape.rowMajor_val_two _
    rw [e1, e2, ho]; omega
  show Ideal.div (Ideal.ofBits .f32 0x3F800000#32)
      (Ideal.ofBits .f32 0x3F800000#32 + Ideal.exp (-(preT x cw bw bb mean var (ix2 b o)))) = _
  rw [one_eq, preT_apply]
  rfl

/-- The reference's composed term is the specification. -/
theorem refTerm_eq_out (x : FVec Ideal S32x256x64x64 .f32) (cw : FVec Ideal S768x256 .f32) (bw bb mean var : FVec Ideal S768 .f32)
    (gamma beta : FVec Ideal S256x1x1 .f32) :
    refTerm x cw bw bb mean var gamma beta = Cert.Spec.out x cw bw bb mean var gamma beta := by
  funext i
  obtain ⟨b, c, h, w, rfl⟩ : ∃ (b : Fin 32) (c : Fin 256) (h w : Fin 64), i = ix4 b c h w := ⟨i 0, i 1, i 2, i 3, eq_ix4 i⟩
  rw [Cert.Spec.out_ix4]
  unfold refTerm Cert.Spec.outAt
  rw [addf_apply, mulf_apply, addf_apply, addf_apply, mulf_apply, mulf_apply, mulf_apply, mulf_apply,
    chanT_apply, chanT_apply,
    tapT_apply 0 ![0, 0, 0] rfl rfl rfl, tapT_apply 1 ![0, 1, 0] rfl rfl rfl, tapT_apply 2 ![0, 2, 0] rfl rfl rfl,
    win_apply 0 (by omega) ![0, 0, 0, 0] rfl rfl rfl rfl, win_apply 1 (by omega) ![0, 1, 0, 0] rfl rfl rfl rfl, win_apply 2 (by omega) ![0, 2, 0, 0] rfl rfl rfl rfl,
    filtT_apply x cw bw bb mean var b 0 c (⟨c.val, by omega⟩ : Fin 768) (by show c.val = 256 * 0 + c.val; omega),
    filtT_apply x cw bw bb mean var b 1 c (⟨256 + c.val, by omega⟩ : Fin 768) (by show 256 + c.val = 256 * 1 + c.val; omega),
    filtT_apply x cw bw bb mean var b 2 c (⟨512 + c.val, by omega⟩ : Fin 768) (by show 512 + c.val = 256 * 2 + c.val; omega),
    Cert.Spec.padT_mid]
  rfl

end Cert.ReferenceIdeal.RefValue

end
-- ==== Proof.RefValue.lean ====
/-
  The reference program's run against the specification: every weakly fair execution of @main terminates
  with the result buffer at the specification's function of the eight argument arrays, the arguments unchanged.
-/
import proofs.«155818_j60060822667451_1_alg».proof.Proof.RefRead
import proofs.«155818_j60060822667451_1_alg».proof.Proof.RefPoint

noncomputable section

namespace Cert.ReferenceIdeal.RefValue

open Cert.ReferenceIdeal Cert.ReferenceIdeal.RefRun Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v53)
          = Cert.Spec.out (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run (defs (F := Ideal)) _ _).mono (fun _ h c =>
    ⟨(h c main_v53).trans ((v53_eq _).trans (refTerm_eq_out _ _ _ _ _ _ _ _)),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _)⟩)
    (run_all m ρ)

end Cert.ReferenceIdeal.RefValue

end
-- ==== Proof.lean ====
/-
  A fused channel-attention kernel against its array-library reference, over the extended reals.

  Both programs compute, for a sample b of x : [32, 256, 64, 64]: the mean of each channel over its 64 × 64
  spatial field; a 1×1 convolution of the 256 means with a [768, 256] weight; an evaluation-mode batch
  normalisation, (f − mean) · rsqrt (var + ε) · w + b; a logistic, giving three taps of 256 filter entries;
  the three-tap combination, along the channel axis, of the reflect-padded input; and the affine residual
  out · γ + x · β. The kernel does all of it per sample in one grid point on the padded input with its two
  spatial axes folded into one lane axis of 4096, accumulating the taps through a scratch buffer; the
  reference does it on whole arrays.

  The two agree as functions on the extended reals with no appeal to finiteness: the kernel's lane sum over
  4096 is the reference's sum over (h, w) re-indexed (addition is commutative and associative on the extended
  reals), the kernel's one-row matrix product is the reference's contraction term by term, the logistic is by
  definition 1 / (1 + exp (−f)) as the reference spells it, row c + 1 of the padded array is row c of the input,
  and everything else is the same operations in the same grouping on the same words.

  Spec.lean states the common function; K*.lean read the kernel program's run back to it (the body's block as
  one pure function, that function at an index, the blocks' reads through their windows, the 32 blocks tiling
  the result array, the unfolding after the region); Ref*.lean read the reference's run back to it. The three
  frame claims are the two generated frame runs and the reference's run with its result dropped; the
  idealisation rewrote nothing.
-/
import proofs.«155818_j60060822667451_1_alg».proof.Defs
import proofs.«155818_j60060822667451_1_alg».proof.Proof.Gen.Kernel
import proofs.«155818_j60060822667451_1_alg».proof.Proof.Gen.Kernel.Frame
import proofs.«155818_j60060822667451_1_alg».proof.Proof.Gen.KernelIdeal
import proofs.«155818_j60060822667451_1_alg».proof.Proof.Gen.KernelIdeal.Frame
import proofs.«155818_j60060822667451_1_alg».proof.Proof.Gen.ReferenceIdeal
import proofs.«155818_j60060822667451_1_alg».proof.Proof.Gen.Pre_finite_inputs
import proofs.«155818_j60060822667451_1_alg».proof.Proof.KRun
import proofs.«155818_j60060822667451_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealisation rewrote no operation. -/
theorem preserves : Cert.preserves_Kernel_KernelIdeal := trivial

/-- Both runs end with their result at the one specification of the argument arrays, which agree. -/
theorem algebraic : Cert.algebraic_KernelIdeal_ReferenceIdeal := by
  intro m ρ m' ρ' _ hagree
  refine ⟨_, Cert.KernelIdeal.KRun.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1,
    (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
